-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S160000 : Shape := ⟨1, ![160000]⟩
abbrev S10000 : Shape := ⟨1, ![10000]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S160000 : S_.BroadcastsInDim S160000 (![] : Fin 0 → Fin S160000.rank)
  reducesTo_S160000_S_d0 : S160000.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg9 : FVec F S512x512 .f32) (main_arg10 : FVec F S512x512 .f32) (main_arg11 : FVec F S512 .f32) (main_arg12 : FVec F S512 .f32) (main_v33 : IVec S_ 1) : IVec S_ 1 :=
  let main_v34 : FVec F S512x512 .f32 := Host.absf main_arg9
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512x512 .f32 := Host.absf main_arg10
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg11
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg12
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg6 : FVec F S512x512 .f32) (main_arg7 : FVec F S512 .f32) (main_arg8 : FVec F S512 .f32) (main_arg9 : FVec F S512x512 .f32) (main_arg10 : FVec F S512x512 .f32) (main_arg11 : FVec F S512 .f32) (main_arg12 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg6
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S10000x512 .f32) (main_arg1 : FVec F S10000x512 .f32) (main_arg2 : IVec S2x160000 32) (main_arg3 : FVec F S160000 .f32) (main_arg4 : IVec S10000 32) (main_arg5 : FVec F S512x512 .f32) (main_arg6 : FVec F S512x512 .f32) (main_arg7 : FVec F S512 .f32) (main_arg8 : FVec F S512 .f32) (main_arg9 : FVec F S512x512 .f32) (main_arg10 : FVec F S512x512 .f32) (main_arg11 : FVec F S512 .f32) (main_arg12 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x512 .f32 := Host.absf main_arg1
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_v9 : FVec F S160000 .f32 := Host.absf main_arg3
  let main_cst_2 : FVec F S_ .f32 := constant S_ .f32 0x7F800000#32
  let main_v10 : FVec F S160000 .f32 := broadcastInDim S160000 ![] bcast_S_S160000 main_cst_2
  let main_v11 : IVec S160000 1 := cmpf .olt main_v9 main_v10
  let main_c_3 : IVec S_ 1 := constantI S_ 1 1#1
  let main_v12 : IVec S_ 1 := (fun x v => Host.reduce IntOp.andi x v reducesTo_S160000_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_arg10 main_arg11 main_arg12 main_v13 main_v16
-- ==== Kernel.lean ====
abbrev S10000x512 : Shape := ⟨2, ![10000, 512]⟩
abbrev S2x160000 : Shape := ⟨2, ![2, 160000]⟩
abbrev S160000 : Shape := ⟨1, ![160000]⟩
abbrev S10000 : Shape := ⟨1, ![10000]⟩
abbrev S512x512 : Shape := ⟨2, ![512, 512]⟩
abbrev S512 : Shape := ⟨1, ![512]⟩
abbrev S1x160000 : Shape := ⟨2, ![1, 160000]⟩
abbrev S_ : Shape := ⟨0, ![]⟩
abbrev S160000x1 : Shape := ⟨2, ![160000, 1]⟩
abbrev S1x512 : Shape := ⟨2, ![1, 512]⟩
abbrev S400x512 : Shape := ⟨2, ![400, 512]⟩
abbrev S160000x512 : Shape := ⟨2, ![160000, 512]⟩
abbrev S10000x512x1 : Shape := ⟨3, ![10000, 512, 1]⟩
abbrev S10000x512x2 : Shape := ⟨3, ![10000, 512, 2]⟩

abbrev nBuf : Space → Nat
  | .hbm => 133
  | .vmem => 36
  | .smem => 0
  | _ => 0

abbrev hbmTy0_0 (i : Nat) : BufTy := match i % 128 with
  | 0 => ⟨S10000x512, .f32⟩
  | 1 => ⟨S10000x512, .f32⟩
  | 2 => ⟨S2x160000, .i32⟩
  | 3 => ⟨S160000, .f32⟩
  | 4 => ⟨S10000, .i32⟩
  | 5 => ⟨S512x512, .f32⟩
  | 6 => ⟨S512x512, .f32⟩
  | 7 => ⟨S512, .f32⟩
  | 8 => ⟨S512, .f32⟩
  | 9 => ⟨S512x512, .f32⟩
  | 10 => ⟨S512x512, .f32⟩
  | 11 => ⟨S512, .f32⟩
  | 12 => ⟨S512, .f32⟩
  | 13 => ⟨S1x160000, .i32⟩
  | 14 => ⟨S160000, .i32⟩
  | 15 => ⟨S1x160000, .i32⟩
  | 16 => ⟨S160000, .i32⟩
  | 17 => ⟨S_, .i32⟩
  | 18 => ⟨S160000, .i32⟩
  | 19 => ⟨S160000, .i1⟩
  | 20 => ⟨S_, .i32⟩
  | 21 => ⟨S160000, .i32⟩
  | 22 => ⟨S160000, .i32⟩
  | 23 => ⟨S160000, .i32⟩
  | 24 => ⟨S160000x1, .i32⟩
  | 25 => ⟨S160000, .i32⟩
  | 26 => ⟨S_, .i32⟩
  | 27 => ⟨S160000, .i32⟩
  | 28 => ⟨S160000, .i1⟩
  | 29 => ⟨S_, .i32⟩
  | 30 => ⟨S160000, .i32⟩
  | 31 => ⟨S160000, .i32⟩
  | 32 => ⟨S160000, .i32⟩
  | 33 => ⟨S160000x1, .i32⟩
  | 34 => ⟨S160000, .i32⟩
  | 35 => ⟨S160000, .i1⟩
  | 36 => ⟨S_, .f32⟩
  | 37 => ⟨S_, .f32⟩
  | 38 => ⟨S160000, .f32⟩
  | 39 => ⟨S160000, .f32⟩
  | 40 => ⟨S_, .f32⟩
  | 41 => ⟨S_, .f32⟩
  | 42 => ⟨S160000, .f32⟩
  | 43 => ⟨S160000, .f32⟩
  | 44 => ⟨S10000x512, .bf16⟩
  | 45 => ⟨S10000x512, .bf16⟩
  | 46 => ⟨S512x512, .f32⟩
  | 47 => ⟨S512x512, .bf16⟩
  | 48 => ⟨S512x512, .f32⟩
  | 49 => ⟨S512x512, .bf16⟩
  | 50 => ⟨S512x512, .f32⟩
  | 51 => ⟨S512x512, .bf16⟩
  | 52 => ⟨S512x512, .f32⟩
  | 53 => ⟨S512x512, .bf16⟩
  | 54 => ⟨S1x512, .f32⟩
  | 55 => ⟨S1x512, .f32⟩
  | 56 => ⟨S1x512, .f32⟩
  | 57 => ⟨S1x512, .f32⟩
  | 58 => ⟨S10000x512, .bf16⟩
  | 59 => ⟨S10000x512, .bf16⟩
  | 60 => ⟨S10000x512, .bf16⟩
  | 61 => ⟨S10000x512, .bf16⟩
  | 62 => ⟨S160000x1, .f32⟩
  | 63 => ⟨S_, .i32⟩
  | 64 => ⟨S160000, .i32⟩
  | 65 => ⟨S160000, .i1⟩
  | 66 => ⟨S_, .i32⟩
  | 67 => ⟨S160000, .i32⟩
  | 68 => ⟨S160000, .i32⟩
  | 69 => ⟨S160000, .i32⟩
  | 70 => ⟨S160000x1, .i32⟩
  | 71 => ⟨S160000x512, .bf16⟩
  | 72 => ⟨S160000x512, .f32⟩
  | 73 => ⟨S160000x512, .f32⟩
  | 74 => ⟨S160000x512, .f32⟩
  | 75 => ⟨S_, .f32⟩
  | 76 => ⟨S10000x512, .f32⟩
  | 77 => ⟨S160000x1, .i32⟩
  | 78 => ⟨S10000x512, .f32⟩
  | 79 => ⟨S_, .i32⟩
  | 80 => ⟨S160000, .i32⟩
  | 81 => ⟨S160000, .i1⟩
  | 82 => ⟨S_, .i32⟩
  | 83 => ⟨S160000, .i32⟩
  | 84 => ⟨S160000, .i32⟩
  | 85 => ⟨S160000, .i32⟩
  | 86 => ⟨S160000x1, .i32⟩
  | 87 => ⟨S160000x512, .bf16⟩
  | 88 => ⟨S160000x512, .f32⟩
  | 89 => ⟨S160000x512, .f32⟩
  | 90 => ⟨S160000x512, .f32⟩
  | 91 => ⟨S_, .f32⟩
  | 92 => ⟨S10000x512, .f32⟩
  | 93 => ⟨S160000x1, .i32⟩
  | 94 => ⟨S10000x512, .f32⟩
  | 95 => ⟨S160000x1, .f32⟩
  | 96 => ⟨S_, .i32⟩
  | 97 => ⟨S160000, .i32⟩
  | 98 => ⟨S160000, .i1⟩
  | 99 => ⟨S_, .i32⟩
  | 100 => ⟨S160000, .i32⟩
  | 101 => ⟨S160000, .i32⟩
  | 102 => ⟨S160000, .i32⟩
  | 103 => ⟨S160000x1, .i32⟩
  | 104 => ⟨S160000x512, .bf16⟩
  | 105 => ⟨S160000x512, .f32⟩
  | 106 => ⟨S160000x512, .f32⟩
  | 107 => ⟨S160000x512, .f32⟩
  | 108 => ⟨S_, .f32⟩
  | 109 => ⟨S10000x512, .f32⟩
  | 110 => ⟨S160000x1, .i32⟩
  | 111 => ⟨S10000x512, .f32⟩
  | 112 => ⟨S_, .i32⟩
  | 113 => ⟨S160000, .i32⟩
  | 114 => ⟨S160000, .i1⟩
  | 115 => ⟨S_, .i32⟩
  | 116 => ⟨S160000, .i32⟩
  | 117 => ⟨S160000, .i32⟩
  | 118 => ⟨S160000, .i32⟩
  | 119 => ⟨S160000x1, .i32⟩
  | 120 => ⟨S160000x512, .bf16⟩
  | 121 => ⟨S160000x512, .f32⟩
  | 122 => ⟨S160000x512, .f32⟩
  | 123 => ⟨S160000x512, .f32⟩
  | 124 => ⟨S_, .f32⟩
  | 125 => ⟨S10000x512, .f32⟩
  | 126 => ⟨S160000x1, .i32⟩
  | 127 => ⟨S10000x512, .f32⟩
  | _ => ⟨S10000x512, .f32⟩

abbrev hbmTy0_1 (i : Nat) : BufTy := match i % 128 with
  | 0 => ⟨S10000x512, .f32⟩
  | 1 => ⟨S10000x512, .f32⟩
  | 2 => ⟨S10000x512x1, .f32⟩
  | 3 => ⟨S10000x512x1, .f32⟩
  | 4 => ⟨S10000x512x2, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | .local _ .vmem, ⟨0, _⟩ => ⟨S400x512, .bf16⟩
  | .local _ .vmem, ⟨1, _⟩ => ⟨S400x512, .bf16⟩
  | .local _ .vmem, ⟨2, _⟩ => ⟨S400x512, .bf16⟩
  | .local _ .vmem, ⟨3, _⟩ => ⟨S400x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S400x512, .bf16⟩
  | .local _ .vmem, ⟨13, _⟩ => ⟨S400x512, .bf16⟩
  | .local _ .vmem, ⟨14, _⟩ => ⟨S400x512, .bf16⟩
  | .local _ .vmem, ⟨15, _⟩ => ⟨S400x512, .bf16⟩
  | .local _ .vmem, ⟨16, _⟩ => ⟨S400x512, .bf16⟩
  | .local _ .vmem, ⟨17, _⟩ => ⟨S400x512, .bf16⟩
  | .local _ .vmem, ⟨18, _⟩ => ⟨S400x512, .bf16⟩
  | .local _ .vmem, ⟨19, _⟩ => ⟨S400x512, .bf16⟩
  | .local _ .vmem, ⟨20, _⟩ => ⟨S400x512, .f32⟩
  | .local _ .vmem, ⟨21, _⟩ => ⟨S400x512, .f32⟩
  | .local _ .vmem, ⟨22, _⟩ => ⟨S400x512, .f32⟩
  | .local _ .vmem, ⟨23, _⟩ => ⟨S400x512, .f32⟩
  | .local _ .vmem, ⟨24, _⟩ => ⟨S400x512, .f32⟩
  | .local _ .vmem, ⟨25, _⟩ => ⟨S400x512, .f32⟩
  | .local _ .vmem, ⟨26, _⟩ => ⟨S400x512, .f32⟩
  | .local _ .vmem, ⟨27, _⟩ => ⟨S400x512, .f32⟩
  | .local _ .vmem, ⟨28, _⟩ => ⟨S400x512, .f32⟩
  | .local _ .vmem, ⟨29, _⟩ => ⟨S400x512, .f32⟩
  | .local _ .vmem, ⟨30, _⟩ => ⟨S400x512, .f32⟩
  | .local _ .vmem, ⟨31, _⟩ => ⟨S400x512, .f32⟩
  | .local _ .vmem, ⟨32, _⟩ => ⟨S400x512, .f32⟩
  | .local _ .vmem, ⟨33, _⟩ => ⟨S400x512, .f32⟩
  | .local _ .vmem, ⟨34, _⟩ => ⟨S400x512, .f32⟩
  | .local _ .vmem, ⟨35, _⟩ => ⟨S400x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_v19 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35_0 : Ref sig .tc := ⟨.hbm, 58, rfl⟩
abbrev main_v35_1 : Ref sig .tc := ⟨.hbm, 59, rfl⟩
abbrev main_v35_2 : Ref sig .tc := ⟨.hbm, 60, rfl⟩
abbrev main_v35_3 : Ref sig .tc := ⟨.hbm, 61, rfl⟩
abbrev main_v36 : Ref sig .tc := ⟨.hbm, 62, rfl⟩
abbrev main_c_4 : Ref sig .tc := ⟨.hbm, 63, rfl⟩
abbrev main_v37 : Ref sig .tc := ⟨.hbm, 64, rfl⟩
abbrev main_v38 : Ref sig .tc := ⟨.hbm, 65, rfl⟩
abbrev main_c_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_7 : Ref sig .tc := ⟨.hbm, 79, rfl⟩
abbrev main_v50 : Ref sig .tc := ⟨.hbm, 80, rfl⟩
abbrev main_v51 : Ref sig .tc := ⟨.hbm, 81, rfl⟩
abbrev main_c_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_10 : Ref sig .tc := ⟨.hbm, 96, rfl⟩
abbrev main_v64 : Ref sig .tc := ⟨.hbm, 97, rfl⟩
abbrev main_v65 : Ref sig .tc := ⟨.hbm, 98, rfl⟩
abbrev main_c_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_12 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_13 : Ref sig .tc := ⟨.hbm, 112, rfl⟩
abbrev main_v77 : Ref sig .tc := ⟨.hbm, 113, rfl⟩
abbrev main_v78 : Ref sig .tc := ⟨.hbm, 114, rfl⟩
abbrev main_c_14 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_15 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90_0 : Ref sig .tc := ⟨.hbm, 128, rfl⟩
abbrev main_v90_1 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem7_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S400x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S400x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S400x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S400x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S400x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bitsLt_bf16_f32 : FTy.bits .bf16 < FTy.bits .f32
  transposes_S512x512_S512x512_1_0 : S512x512.Transposes [1, 0] S512x512
  shapeCasts_S512_S1x512 : S512.ShapeCasts S1x512
  inb_S400x512_S400x512_0_0 : ∀ a, (![0, 0] : Fin 2 → Nat) a + S400x512.size a ≤ S400x512.size a
  h_S400x512 : 0 < S400x512.numel
  shapeCasts_S400x512_S400x512 : S400x512.ShapeCasts S400x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  packedbf16_S400x512_S400x512_0_0 : (Rect.unit (s := S400x512) ![0, 0] S400x512.size inb_S400x512_S400x512_0_0).PackedRows (EltTy.packing .bf16)
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bcast_S10000x512_S10000x512x1_0_1 : S10000x512.BroadcastsInDim S10000x512x1 (![0, 1] : Fin 2 → Fin S10000x512x1.rank)
  concatenates_S10000x512x1_S10000x512x1_S10000x512x2_d2 : Shape.Concatenates [S10000x512x1, S10000x512x1] S10000x512x2 2
  gather_S10000_S160000x1_S160000_n_0_n_n_0_1_1_wf : GatherDims.WF S10000 S160000x1 S160000 [] [0] [] [0] [] 1 ![1]
  dot_S400x512_S512x512_S400x512_1_0_0_1_n_n_wf : DotDims.WF S400x512 S512x512 S400x512 [1] [0] [0] [1] [] []
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x512.size a ≤ S10000x512.size a
  hwx0_0 : ∀ i : grid0.Coords, EltTy.bits .bf16 = 32 ∨ (Rect.block (s := S10000x512) S400x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x512.size a ≤ S10000x512.size a
  hwx0_1 : ∀ i : grid0.Coords, EltTy.bits .bf16 = 32 ∨ (Rect.block (s := S10000x512) S400x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S400x512.size a ≤ S10000x512.size a
  hwx0_10 : ∀ i : grid0.Coords, EltTy.bits .bf16 = 32 ∨ (Rect.block (s := S10000x512) S400x512.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S400x512.size a ≤ S10000x512.size a
  hwx0_11 : ∀ i : grid0.Coords, EltTy.bits .bf16 = 32 ∨ (Rect.block (s := S10000x512) S400x512.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S400x512.size a ≤ S10000x512.size a
  hwx0_12 : ∀ i : grid0.Coords, EltTy.bits .bf16 = 32 ∨ (Rect.block (s := S10000x512) S400x512.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S400x512.size a ≤ S10000x512.size a
  hwx0_13 : ∀ i : grid0.Coords, EltTy.bits .bf16 = 32 ∨ (Rect.block (s := S10000x512) S400x512.size (cc0_transform_13 i) (hinb0_13 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x512.size a ≤ S10000x512.size a
  hwx1_0 : ∀ i : grid1.Coords, EltTy.bits .f32 = 32 ∨ (Rect.block (s := S10000x512) S400x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x512.size a ≤ S10000x512.size a
  hwx1_1 : ∀ i : grid1.Coords, EltTy.bits .f32 = 32 ∨ (Rect.block (s := S10000x512) S400x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x512.size a ≤ S10000x512.size a
  hwx1_2 : ∀ i : grid1.Coords, EltTy.bits .f32 = 32 ∨ (Rect.block (s := S10000x512) S400x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x512.size a ≤ S10000x512.size a
  hwx1_3 : ∀ i : grid1.Coords, EltTy.bits .f32 = 32 ∨ (Rect.block (s := S10000x512) S400x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x512.size a ≤ S10000x512.size a
  hwx1_4 : ∀ i : grid1.Coords, EltTy.bits .f32 = 32 ∨ (Rect.block (s := S10000x512) S400x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x512.size a ≤ S10000x512.size a
  hwx1_5 : ∀ i : grid1.Coords, EltTy.bits .f32 = 32 ∨ (Rect.block (s := S10000x512) S400x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x512.size a ≤ S10000x512.size a
  hwx1_6 : ∀ i : grid1.Coords, EltTy.bits .f32 = 32 ∨ (Rect.block (s := S10000x512) S400x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x512.size a ≤ S10000x512.size a
  hwx1_7 : ∀ i : grid1.Coords, EltTy.bits .f32 = 32 ∨ (Rect.block (s := S10000x512) S400x512.size (cc1_transform_7 i) (hinb1_7 i)).WholeWords (EltTy.packing .f32)

variable [Facts₀]

def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf

abbrev win0_0 : Pipeline.Window sig grid0 :=
  Pipeline.Window.ofSpec (Memref.whole main_v21) S400x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S400x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v34) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v35_0) S400x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v35_1) S400x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v35_2) S400x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v35_3) S400x512.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v49) S400x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S400x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v76) S400x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v89) S400x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S400x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg1) S400x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v90_0) S400x512.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v90_1) S400x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S160000 : Shape := ⟨1, ![160000]⟩
abbrev S10000 : Shape := ⟨1, ![10000]⟩
abbrev S512x512 : Shape := ⟨2, ![512, 512]⟩
abbrev S512 : Shape := ⟨1, ![512]⟩
abbrev S1x160000 : Shape := ⟨2, ![1, 160000]⟩
abbrev S_ : Shape := ⟨0, ![]⟩
abbrev S160000x1 : Shape := ⟨2, ![160000, 1]⟩
abbrev S1x512 : Shape := ⟨2, ![1, 512]⟩
abbrev S160000x512 : Shape := ⟨2, ![160000, 512]⟩
abbrev S10000x512x1 : Shape := ⟨3, ![10000, 512, 1]⟩
abbrev S10000x512x2 : Shape := ⟨3, ![10000, 512, 2]⟩

abbrev nBuf : Space → Nat
  | .hbm => 183
  | .vmem => 0
  | .smem => 0
  | _ => 0

abbrev hbmTy0_0 (i : Nat) : BufTy := match i % 128 with
  | 0 => ⟨S10000x512, .f32⟩
  | 1 => ⟨S10000x512, .f32⟩
  | 2 => ⟨S2x160000, .i32⟩
  | 3 => ⟨S160000, .f32⟩
  | 4 => ⟨S10000, .i32⟩
  | 5 => ⟨S512x512, .f32⟩
  | 6 => ⟨S512x512, .f32⟩
  | 7 => ⟨S512, .f32⟩
  | 8 => ⟨S512, .f32⟩
  | 9 => ⟨S512x512, .f32⟩
  | 10 => ⟨S512x512, .f32⟩
  | 11 => ⟨S512, .f32⟩
  | 12 => ⟨S512, .f32⟩
  | 13 => ⟨S1x160000, .i32⟩
  | 14 => ⟨S160000, .i32⟩
  | 15 => ⟨S1x160000, .i32⟩
  | 16 => ⟨S160000, .i32⟩
  | 17 => ⟨S_, .i32⟩
  | 18 => ⟨S160000, .i32⟩
  | 19 => ⟨S160000, .i1⟩
  | 20 => ⟨S_, .i32⟩
  | 21 => ⟨S160000, .i32⟩
  | 22 => ⟨S160000, .i32⟩
  | 23 => ⟨S160000, .i32⟩
  | 24 => ⟨S160000x1, .i32⟩
  | 25 => ⟨S160000, .i32⟩
  | 26 => ⟨S_, .i32⟩
  | 27 => ⟨S160000, .i32⟩
  | 28 => ⟨S160000, .i1⟩
  | 29 => ⟨S_, .i32⟩
  | 30 => ⟨S160000, .i32⟩
  | 31 => ⟨S160000, .i32⟩
  | 32 => ⟨S160000, .i32⟩
  | 33 => ⟨S160000x1, .i32⟩
  | 34 => ⟨S160000, .i32⟩
  | 35 => ⟨S160000, .i1⟩
  | 36 => ⟨S_, .f32⟩
  | 37 => ⟨S_, .f32⟩
  | 38 => ⟨S160000, .f32⟩
  | 39 => ⟨S160000, .f32⟩
  | 40 => ⟨S_, .f32⟩
  | 41 => ⟨S_, .f32⟩
  | 42 => ⟨S160000, .f32⟩
  | 43 => ⟨S160000, .f32⟩
  | 44 => ⟨S512x512, .f32⟩
  | 45 => ⟨S10000x512, .f32⟩
  | 46 => ⟨S512x512, .f32⟩
  | 47 => ⟨S10000x512, .f32⟩
  | 48 => ⟨S10000x512, .f32⟩
  | 49 => ⟨S1x512, .f32⟩
  | 50 => ⟨S10000x512, .f32⟩
  | 51 => ⟨S10000x512, .f32⟩
  | 52 => ⟨S512x512, .f32⟩
  | 53 => ⟨S10000x512, .f32⟩
  | 54 => ⟨S512x512, .f32⟩
  | 55 => ⟨S10000x512, .f32⟩
  | 56 => ⟨S10000x512, .f32⟩
  | 57 => ⟨S1x512, .f32⟩
  | 58 => ⟨S10000x512, .f32⟩
  | 59 => ⟨S10000x512, .f32⟩
  | 60 => ⟨S160000x1, .f32⟩
  | 61 => ⟨S_, .i32⟩
  | 62 => ⟨S160000, .i32⟩
  | 63 => ⟨S160000, .i1⟩
  | 64 => ⟨S_, .i32⟩
  | 65 => ⟨S160000, .i32⟩
  | 66 => ⟨S160000, .i32⟩
  | 67 => ⟨S160000, .i32⟩
  | 68 => ⟨S160000x1, .i32⟩
  | 69 => ⟨S160000x512, .f32⟩
  | 70 => ⟨S160000x512, .f32⟩
  | 71 => ⟨S160000x512, .f32⟩
  | 72 => ⟨S_, .f32⟩
  | 73 => ⟨S10000x512, .f32⟩
  | 74 => ⟨S160000x1, .i32⟩
  | 75 => ⟨S10000x512, .f32⟩
  | 76 => ⟨S_, .i32⟩
  | 77 => ⟨S160000, .i32⟩
  | 78 => ⟨S160000, .i1⟩
  | 79 => ⟨S_, .i32⟩
  | 80 => ⟨S160000, .i32⟩
  | 81 => ⟨S160000, .i32⟩
  | 82 => ⟨S160000, .i32⟩
  | 83 => ⟨S160000x1, .i32⟩
  | 84 => ⟨S160000x512, .f32⟩
  | 85 => ⟨S160000x512, .f32⟩
  | 86 => ⟨S160000x512, .f32⟩
  | 87 => ⟨S_, .f32⟩
  | 88 => ⟨S10000x512, .f32⟩
  | 89 => ⟨S160000x1, .i32⟩
  | 90 => ⟨S10000x512, .f32⟩
  | 91 => ⟨S10000x512, .f32⟩
  | 92 => ⟨S10000x512, .f32⟩
  | 93 => ⟨S10000x512, .f32⟩
  | 94 => ⟨S10000x512, .f32⟩
  | 95 => ⟨S_, .f32⟩
  | 96 => ⟨S10000x512, .f32⟩
  | 97 => ⟨S10000x512, .f32⟩
  | 98 => ⟨S_, .f32⟩
  | 99 => ⟨S10000x512, .f32⟩
  | 100 => ⟨S10000x512, .f32⟩
  | 101 => ⟨S10000x512, .f32⟩
  | 102 => ⟨S10000x512, .f32⟩
  | 103 => ⟨S10000x512, .f32⟩
  | 104 => ⟨S_, .f32⟩
  | 105 => ⟨S10000x512, .f32⟩
  | 106 => ⟨S10000x512, .f32⟩
  | 107 => ⟨S_, .f32⟩
  | 108 => ⟨S10000x512, .f32⟩
  | 109 => ⟨S10000x512, .f32⟩
  | 110 => ⟨S10000x512, .f32⟩
  | 111 => ⟨S512x512, .f32⟩
  | 112 => ⟨S10000x512, .f32⟩
  | 113 => ⟨S512x512, .f32⟩
  | 114 => ⟨S10000x512, .f32⟩
  | 115 => ⟨S10000x512, .f32⟩
  | 116 => ⟨S1x512, .f32⟩
  | 117 => ⟨S10000x512, .f32⟩
  | 118 => ⟨S10000x512, .f32⟩
  | 119 => ⟨S512x512, .f32⟩
  | 120 => ⟨S10000x512, .f32⟩
  | 121 => ⟨S512x512, .f32⟩
  | 122 => ⟨S10000x512, .f32⟩
  | 123 => ⟨S10000x512, .f32⟩
  | 124 => ⟨S1x512, .f32⟩
  | 125 => ⟨S10000x512, .f32⟩
  | 126 => ⟨S10000x512, .f32⟩
  | 127 => ⟨S160000x1, .f32⟩
  | _ => ⟨S10000x512, .f32⟩

abbrev hbmTy0_1 (i : Nat) : BufTy := match i % 128 with
  | 0 => ⟨S_, .i32⟩
  | 1 => ⟨S160000, .i32⟩
  | 2 => ⟨S160000, .i1⟩
  | 3 => ⟨S_, .i32⟩
  | 4 => ⟨S160000, .i32⟩
  | 5 => ⟨S160000, .i32⟩
  | 6 => ⟨S160000, .i32⟩
  | 7 => ⟨S160000x1, .i32⟩
  | 8 => ⟨S160000x512, .f32⟩
  | 9 => ⟨S160000x512, .f32⟩
  | 10 => ⟨S160000x512, .f32⟩
  | 11 => ⟨S_, .f32⟩
  | 12 => ⟨S10000x512, .f32⟩
  | 13 => ⟨S160000x1, .i32⟩
  | 14 => ⟨S10000x512, .f32⟩
  | 15 => ⟨S_, .i32⟩
  | 16 => ⟨S160000, .i32⟩
  | 17 => ⟨S160000, .i1⟩
  | 18 => ⟨S_, .i32⟩
  | 19 => ⟨S160000, .i32⟩
  | 20 => ⟨S160000, .i32⟩
  | 21 => ⟨S160000, .i32⟩
  | 22 => ⟨S160000x1, .i32⟩
  | 23 => ⟨S160000x512, .f32⟩
  | 24 => ⟨S160000x512, .f32⟩
  | 25 => ⟨S160000x512, .f32⟩
  | 26 => ⟨S_, .f32⟩
  | 27 => ⟨S10000x512, .f32⟩
  | 28 => ⟨S160000x1, .i32⟩
  | 29 => ⟨S10000x512, .f32⟩
  | 30 => ⟨S10000x512, .f32⟩
  | 31 => ⟨S10000x512, .f32⟩
  | 32 => ⟨S10000x512, .f32⟩
  | 33 => ⟨S10000x512, .f32⟩
  | 34 => ⟨S_, .f32⟩
  | 35 => ⟨S10000x512, .f32⟩
  | 36 => ⟨S10000x512, .f32⟩
  | 37 => ⟨S_, .f32⟩
  | 38 => ⟨S10000x512, .f32⟩
  | 39 => ⟨S10000x512, .f32⟩
  | 40 => ⟨S10000x512, .f32⟩
  | 41 => ⟨S10000x512, .f32⟩
  | 42 => ⟨S10000x512, .f32⟩
  | 43 => ⟨S_, .f32⟩
  | 44 => ⟨S10000x512, .f32⟩
  | 45 => ⟨S10000x512, .f32⟩
  | 46 => ⟨S_, .f32⟩
  | 47 => ⟨S10000x512, .f32⟩
  | 48 => ⟨S10000x512, .f32⟩
  | 49 => ⟨S10000x512, .f32⟩
  | 50 => ⟨S10000x512, .f32⟩
  | 51 => ⟨S10000x512, .f32⟩
  | 52 => ⟨S10000x512x1, .f32⟩
  | 53 => ⟨S10000x512x1, .f32⟩
  | 54 => ⟨S10000x512x2, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_v19 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_4 : Ref sig .tc := ⟨.hbm, 61, rfl⟩
abbrev main_v38 : Ref sig .tc := ⟨.hbm, 62, rfl⟩
abbrev main_v39 : Ref sig .tc := ⟨.hbm, 63, rfl⟩
abbrev main_c_5 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_7 : Ref sig .tc := ⟨.hbm, 76, rfl⟩
abbrev main_v50 : Ref sig .tc := ⟨.hbm, 77, rfl⟩
abbrev main_v51 : Ref sig .tc := ⟨.hbm, 78, rfl⟩
abbrev main_c_8 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call2_v0 : Ref sig .tc := ⟨.hbm, 93, rfl⟩
abbrev main_call2_v1 : Ref sig .tc := ⟨.hbm, 94, rfl⟩
abbrev main_call2_cst : Ref sig .tc := ⟨.hbm, 95, rfl⟩
abbrev main_call2_v2 : Ref sig .tc := ⟨.hbm, 96, rfl⟩
abbrev main_call2_v3 : Ref sig .tc := ⟨.hbm, 97, rfl⟩
abbrev main_call2_cst_0 : Ref sig .tc := ⟨.hbm, 98, rfl⟩
abbrev main_call2_v4 : Ref sig .tc := ⟨.hbm, 99, rfl⟩
abbrev main_call2_v5 : Ref sig .tc := ⟨.hbm, 100, rfl⟩
abbrev main_v64 : Ref sig .tc := ⟨.hbm, 101, rfl⟩
abbrev main_call3_v0 : Ref sig .tc := ⟨.hbm, 102, rfl⟩
abbrev main_call3_v1 : Ref sig .tc := ⟨.hbm, 103, rfl⟩
abbrev main_call3_cst : Ref sig .tc := ⟨.hbm, 104, rfl⟩
abbrev main_call3_v2 : Ref sig .tc := ⟨.hbm, 105, rfl⟩
abbrev main_call3_v3 : Ref sig .tc := ⟨.hbm, 106, rfl⟩
abbrev main_call3_cst_0 : Ref sig .tc := ⟨.hbm, 107, rfl⟩
abbrev main_call3_v4 : Ref sig .tc := ⟨.hbm, 108, rfl⟩
abbrev main_call3_v5 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_c_10 : Ref sig .tc := ⟨.hbm, 128, rfl⟩
abbrev main_v83 : Ref sig .tc := ⟨.hbm, 129, rfl⟩
abbrev main_v84 : Ref sig .tc := ⟨.hbm, 130, rfl⟩
abbrev main_c_11 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_12 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_c_13 : Ref sig .tc := ⟨.hbm, 143, rfl⟩
abbrev main_v95 : Ref sig .tc := ⟨.hbm, 144, rfl⟩
abbrev main_v96 : Ref sig .tc := ⟨.hbm, 145, rfl⟩
abbrev main_c_14 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_cst_15 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_call4_v0 : Ref sig .tc := ⟨.hbm, 160, rfl⟩
abbrev main_call4_v1 : Ref sig .tc := ⟨.hbm, 161, rfl⟩
abbrev main_call4_cst : Ref sig .tc := ⟨.hbm, 162, rfl⟩
abbrev main_call4_v2 : Ref sig .tc := ⟨.hbm, 163, rfl⟩
abbrev main_call4_v3 : Ref sig .tc := ⟨.hbm, 164, rfl⟩
abbrev main_call4_cst_0 : Ref sig .tc := ⟨.hbm, 165, rfl⟩
abbrev main_call4_v4 : Ref sig .tc := ⟨.hbm, 166, rfl⟩
abbrev main_call4_v5 : Ref sig .tc := ⟨.hbm, 167, rfl⟩
abbrev main_v109 : Ref sig .tc := ⟨.hbm, 168, rfl⟩
abbrev main_call5_v0 : Ref sig .tc := ⟨.hbm, 169, rfl⟩
abbrev main_call5_v1 : Ref sig .tc := ⟨.hbm, 170, rfl⟩
abbrev main_call5_cst : Ref sig .tc := ⟨.hbm, 171, rfl⟩
abbrev main_call5_v2 : Ref sig .tc := ⟨.hbm, 172, rfl⟩
abbrev main_call5_v3 : Ref sig .tc := ⟨.hbm, 173, rfl⟩
abbrev main_call5_cst_0 : Ref sig .tc := ⟨.hbm, 174, rfl⟩
abbrev main_call5_v4 : Ref sig .tc := ⟨.hbm, 175, rfl⟩
abbrev main_call5_v5 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  transposes_S512x512_S512x512_1_0 : S512x512.Transposes [1, 0] S512x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bcast_S10000x512_S10000x512x1_0_1 : S10000x512.BroadcastsInDim S10000x512x1 (![0, 1] : Fin 2 → Fin S10000x512x1.rank)
  concatenates_S10000x512x1_S10000x512x1_S10000x512x2_d2 : Shape.Concatenates [S10000x512x1, S10000x512x1] S10000x512x2 2
  gather_S10000_S160000x1_S160000_n_0_n_n_0_1_1_wf : GatherDims.WF S10000 S160000x1 S160000 [] [0] [] [0] [] 1 ![1]
  dot_S10000x512_S512x512_S10000x512_1_0_0_1_n_n_wf : DotDims.WF S10000x512 S512x512 S10000x512 [1] [0] [0] [1] [] []
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1

variable [Facts₀]

def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf

class Facts : Prop extends Facts₀ where

variable [Facts]
-- ==== Proof.KRun.lean ====
/-
  The idealized kernel's whole run, with its result named.

  The program is five stretches of host operations, the first launch (the complex linear map, 25 bands of 400 rows),
  a stretch of host operations (the edge gathers, the weighting and the scatter-additions), the second launch (residual,
  activation and the sum of the two branches, again 25 bands) and a last stretch (the two parts stacked on a new last
  axis). Every weakly fair execution terminates without a fault; the result buffer ends holding what the last stretch
  computes from the second launch's arrays, and the thirteen argument arrays end as they were launched.
-/
import proofs.«126010_j61804579389716_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the contents the
    last stretch of host operations leaves in it, and every argument array is as launched. -/
theorem run_result : θ_run defs (onTc (τ := τ) (main (F := F))) ⟨m, fun _ => 0, ρ⟩ (fun r => ∀ c : Dev nD,
      r.2.mem ((c.tc : Thread nD τ).loc main_v93) = W9 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v93 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.KRun

end
-- ==== Proof.Edges.lean ====
/-
  The propagation step over the edges, as one function of whole arrays.

  Given node features H (one row per node), the edge sources and targets as they come in (signed 32-bit numbers) and one
  weight per edge: a negative source has the number of nodes added to it; row e of the gathered array is the row of H the
  source of edge e names; that row is multiplied by the edge's weight; and the weighted rows are added into an all-zero
  array at the rows the targets name. Both programs spell this step with the same host operations, so it is stated once
  and each program's term is read as an instance of it.
-/
import proofs.«126010_j61804579389716_1_alg».proof.Proof.Gen.ReferenceIdeal.Read

noncomputable section

namespace Cert.Edges

open Idealize.ShloMosaic Cert.ReferenceIdeal Cert.ReferenceIdeal.Gen Cert.ReferenceIdeal.Read

/-- The edge sources with the number of nodes added to the negative ones, as a column. -/
def srcColumn (src : (⟨S160000, .i32⟩ : BufTy).Contents (Elt Ideal)) : (⟨S160000x1, .i32⟩ : BufTy).Contents (Elt Ideal) :=
  broadcastInDim S160000x1 ![0] bcast_S160000_S160000x1_0
    (select (cmpi .slt src (broadcastInDim S160000 ![] bcast_S_S160000 (constantI S_ 32 0#32)))
      (addi src (broadcastInDim S160000 ![] bcast_S_S160000 (constantI S_ 32 10000#32))) src)

/-- The weighted rows of H at the edge sources, added into zeros at the edge targets. -/
def propagate (H : (⟨S10000x512, .f32⟩ : BufTy).Contents (Elt Ideal)) (src dst : (⟨S160000, .i32⟩ : BufTy).Contents (Elt Ideal))
    (w : (⟨S160000, .f32⟩ : BufTy).Contents (Elt Ideal)) : (⟨S10000x512, .f32⟩ : BufTy).Contents (Elt Ideal) :=
  Host.scatterAdd (F := Ideal) scatter_S10000x512_S160000x1_S160000x512_1_0_0_1
    (broadcastInDim S10000x512 ![] bcast_S_S10000x512 (constant (F := Ideal) S_ .f32 0x00000000#32))
    (broadcastInDim S160000x1 ![0] bcast_S160000_S160000x1_0 dst)
    (mulf (F := Ideal) (Host.gather gather_S10000x512_S160000x1_S160000x512_1_0_n_n_0_1_1512 H (srcColumn src))
      (broadcastInDim S160000x512 ![0, 1] bcast_S160000x1_S160000x512_0_1
        (broadcastInDim S160000x1 ![0] bcast_S160000_S160000x1_0 w)))

variable (x0 x1 : (⟨S10000x512, .f32⟩ : BufTy).Contents (Elt Ideal)) (x2 : (⟨S2x160000, .i32⟩ : BufTy).Contents (Elt Ideal))
  (x3 : (⟨S160000, .f32⟩ : BufTy).Contents (Elt Ideal)) (x4 : (⟨S10000, .i32⟩ : BufTy).Contents (Elt Ideal))
  (x5 x6 x9 x10 : (⟨S512x512, .f32⟩ : BufTy).Contents (Elt Ideal)) (x7 x8 x11 x12 : (⟨S512, .f32⟩ : BufTy).Contents (Elt Ideal))

/-- The reference's four aggregations are the propagation of its four linear stages: the two local parts over the
    weights kept inside a community, the two global parts over the weights kept across communities. -/
theorem ref_local_re : val_main_v49 (F := Ideal) x0 x1 x2 x3 x4 x5 x6 x7
    = propagate (val_main_v28 (F := Ideal) x0 x1 x5 x6 x7) (val_main_v1 (F := Ideal) x2) (val_main_v3 (F := Ideal) x2) (val_main_v19 (F := Ideal) x2 x3 x4) := rfl

theorem ref_local_im : val_main_v61 (F := Ideal) x0 x1 x2 x3 x4 x5 x6 x8
    = propagate (val_main_v36 (F := Ideal) x0 x1 x5 x6 x8) (val_main_v1 (F := Ideal) x2) (val_main_v3 (F := Ideal) x2) (val_main_v19 (F := Ideal) x2 x3 x4) := rfl

theorem ref_global_re : val_main_v94 (F := Ideal) x0 x1 x2 x3 x4 x9 x10 x11
    = propagate (val_main_v73 (F := Ideal) x0 x1 x9 x10 x11) (val_main_v1 (F := Ideal) x2) (val_main_v3 (F := Ideal) x2) (val_main_v20 (F := Ideal) x2 x3 x4) := rfl

theorem ref_global_im : val_main_v106 (F := Ideal) x0 x1 x2 x3 x4 x9 x10 x12
    = propagate (val_main_v81 (F := Ideal) x0 x1 x9 x10 x12) (val_main_v1 (F := Ideal) x2) (val_main_v3 (F := Ideal) x2) (val_main_v20 (F := Ideal) x2 x3 x4) := rfl

end Cert.Edges

end
-- ==== Proof.Reads.lean ====
/-
  What the idealized kernel's buffers hold at each boundary between its stretches of host operations and its two launches,
  read back to the argument arrays.

  Before the first launch the host prepares the edge data (the two rows of the edge array as sources and targets, the
  mask "both ends in one community", and the edge weights kept inside a community or across communities) and the first
  launch's operands (the node features narrowed, the four weight matrices transposed and narrowed, the four bias vectors
  re-laid as one row). Between the launches it propagates each of the first launch's four results over the edges. After
  the second launch it stacks the two results on a new last axis. Narrowing and widening a float format change nothing
  on exact values, so each of these buffers is the same function of the arguments as the reference's stage of the same
  meaning.
-/
import proofs.«126010_j61804579389716_1_alg».proof.Proof.Gen.KernelIdeal.Frame
import proofs.«126010_j61804579389716_1_alg».proof.Proof.Edges

set_option maxRecDepth 16384

noncomputable section

namespace Cert.KernelIdeal.Reads

open Idealize.ShloMosaic Idealize.ShloMosaic.TcCoe Idealize.SL.Sem
open Cert.KernelIdeal Cert.KernelIdeal.Gen
open Cert.ReferenceIdeal.Read (val_main_v1 val_main_v3 val_main_v19 val_main_v20)

variable (m : (ℓ : Loc nD τ sig) → Buf (Elt Ideal) ℓ) (ρ : Dev nD → PrngReg) (c : Dev nD)

/-! ## Before the first launch -/

theorem src_eq : W5 m ρ c (Proc.devRef .tc main_v1) = val_main_v1 (F := Ideal) (m ((c : Thread nD τ).loc main_arg2)) := by
  show StableHlo.after hostOps0_4 (StableHlo.after hostOps0_3 (StableHlo.after hostOps0_2 (StableHlo.after hostOps0_1 (StableHlo.after hostOps0 (W0 m ρ c))))) _ = _
  after_results_simp <;> rfl

theorem dst_eq : W5 m ρ c (Proc.devRef .tc main_v3) = val_main_v3 (F := Ideal) (m ((c : Thread nD τ).loc main_arg2)) := by
  show StableHlo.after hostOps0_4 (StableHlo.after hostOps0_3 (StableHlo.after hostOps0_2 (StableHlo.after hostOps0_1 (StableHlo.after hostOps0 (W0 m ρ c))))) _ = _
  after_results_simp <;> rfl

theorem intra_eq : W5 m ρ c (Proc.devRef .tc main_v19) = val_main_v19 (F := Ideal) (m ((c : Thread nD τ).loc main_arg2)) (m ((c : Thread nD τ).loc main_arg3)) (m ((c : Thread nD τ).loc main_arg4)) := by
  show StableHlo.after hostOps0_4 (StableHlo.after hostOps0_3 (StableHlo.after hostOps0_2 (StableHlo.after hostOps0_1 (StableHlo.after hostOps0 (W0 m ρ c))))) _ = _
  after_results_simp <;> rfl

theorem inter_eq : W5 m ρ c (Proc.devRef .tc main_v20) = val_main_v20 (F := Ideal) (m ((c : Thread nD τ).loc main_arg2)) (m ((c : Thread nD τ).loc main_arg3)) (m ((c : Thread nD τ).loc main_arg4)) := by
  show StableHlo.after hostOps0_4 (StableHlo.after hostOps0_3 (StableHlo.after hostOps0_2 (StableHlo.after hostOps0_1 (StableHlo.after hostOps0 (W0 m ρ c))))) _ = _
  after_results_simp <;> rfl

/-- The first launch's operands: the node features narrowed. -/
theorem xre_eq : W5 m ρ c (Proc.devRef .tc main_v21) = (truncf .bf16 ((m ((c : Thread nD τ).loc main_arg0)) : FVec Ideal S10000x512 .f32) bitsLt_bf16_f32 : FVec Ideal S10000x512 .bf16) := by
  show StableHlo.after hostOps0_4 (StableHlo.after hostOps0_3 (StableHlo.after hostOps0_2 (StableHlo.after hostOps0_1 (StableHlo.after hostOps0 (W0 m ρ c))))) _ = _
  after_results_simp <;> rfl

theorem xim_eq : W5 m ρ c (Proc.devRef .tc main_v22) = (truncf .bf16 ((m ((c : Thread nD τ).loc main_arg1)) : FVec Ideal S10000x512 .f32) bitsLt_bf16_f32 : FVec Ideal S10000x512 .bf16) := by
  show StableHlo.after hostOps0_4 (StableHlo.after hostOps0_3 (StableHlo.after hostOps0_2 (StableHlo.after hostOps0_1 (StableHlo.after hostOps0 (W0 m ρ c))))) _ = _
  after_results_simp <;> rfl

/-- The four weight matrices transposed and narrowed. -/
theorem wlre_eq : W5 m ρ c (Proc.devRef .tc main_v24)
    = (truncf .bf16 (transpose S512x512 [1, 0] ((m ((c : Thread nD τ).loc main_arg5)) : FVec Ideal S512x512 .f32) transposes_S512x512_S512x512_1_0 : FVec Ideal S512x512 .f32) bitsLt_bf16_f32 : FVec Ideal S512x512 .bf16) := by
  show StableHlo.after hostOps0_4 (StableHlo.after hostOps0_3 (StableHlo.after hostOps0_2 (StableHlo.after hostOps0_1 (StableHlo.after hostOps0 (W0 m ρ c))))) _ = _
  after_results_simp <;> rfl

theorem wlim_eq : W5 m ρ c (Proc.devRef .tc main_v26)
    = (truncf .bf16 (transpose S512x512 [1, 0] ((m ((c : Thread nD τ).loc main_arg6)) : FVec Ideal S512x512 .f32) transposes_S512x512_S512x512_1_0 : FVec Ideal S512x512 .f32) bitsLt_bf16_f32 : FVec Ideal S512x512 .bf16) := by
  show StableHlo.after hostOps0_4 (StableHlo.after hostOps0_3 (StableHlo.after hostOps0_2 (StableHlo.after hostOps0_1 (StableHlo.after hostOps0 (W0 m ρ c))))) _ = _
  after_results_simp <;> rfl

theorem wgre_eq : W5 m ρ c (Proc.devRef .tc main_v28)
    = (truncf .bf16 (transpose S512x512 [1, 0] ((m ((c : Thread nD τ).loc main_arg9)) : FVec Ideal S512x512 .f32) transposes_S512x512_S512x512_1_0 : FVec Ideal S512x512 .f32) bitsLt_bf16_f32 : FVec Ideal S512x512 .bf16) := by
  show StableHlo.after hostOps0_4 (StableHlo.after hostOps0_3 (StableHlo.after hostOps0_2 (StableHlo.after hostOps0_1 (StableHlo.after hostOps0 (W0 m ρ c))))) _ = _
  after_results_simp <;> rfl

theorem wgim_eq : W5 m ρ c (Proc.devRef .tc main_v30)
    = (truncf .bf16 (transpose S512x512 [1, 0] ((m ((c : Thread nD τ).loc main_arg10)) : FVec Ideal S512x512 .f32) transposes_S512x512_S512x512_1_0 : FVec Ideal S512x512 .f32) bitsLt_bf16_f32 : FVec Ideal S512x512 .bf16) := by
  show StableHlo.after hostOps0_4 (StableHlo.after hostOps0_3 (StableHlo.after hostOps0_2 (StableHlo.after hostOps0_1 (StableHlo.after hostOps0 (W0 m ρ c))))) _ = _
  after_results_simp <;> rfl

/-- The four bias vectors re-laid as one row. -/
theorem blre_eq : W5 m ρ c (Proc.devRef .tc main_v31) = (shapeCast S1x512 ((m ((c : Thread nD τ).loc main_arg7)) : FVec Ideal S512 .f32) shapeCasts_S512_S1x512 : FVec Ideal S1x512 .f32) := by
  show StableHlo.after hostOps0_4 (StableHlo.after hostOps0_3 (StableHlo.after hostOps0_2 (StableHlo.after hostOps0_1 (StableHlo.after hostOps0 (W0 m ρ c))))) _ = _
  after_results_simp <;> rfl

theorem blim_eq : W5 m ρ c (Proc.devRef .tc main_v32) = (shapeCast S1x512 ((m ((c : Thread nD τ).loc main_arg8)) : FVec Ideal S512 .f32) shapeCasts_S512_S1x512 : FVec Ideal S1x512 .f32) := by
  show StableHlo.after hostOps0_4 (StableHlo.after hostOps0_3 (StableHlo.after hostOps0_2 (StableHlo.after hostOps0_1 (StableHlo.after hostOps0 (W0 m ρ c))))) _ = _
  after_results_simp <;> rfl

theorem bgre_eq : W5 m ρ c (Proc.devRef .tc main_v33) = (shapeCast S1x512 ((m ((c : Thread nD τ).loc main_arg11)) : FVec Ideal S512 .f32) shapeCasts_S512_S1x512 : FVec Ideal S1x512 .f32) := by
  show StableHlo.after hostOps0_4 (StableHlo.after hostOps0_3 (StableHlo.after hostOps0_2 (StableHlo.after hostOps0_1 (StableHlo.after hostOps0 (W0 m ρ c))))) _ = _
  after_results_simp <;> rfl

theorem bgim_eq : W5 m ρ c (Proc.devRef .tc main_v34) = (shapeCast S1x512 ((m ((c : Thread nD τ).loc main_arg12)) : FVec Ideal S512 .f32) shapeCasts_S512_S1x512 : FVec Ideal S1x512 .f32) := by
  show StableHlo.after hostOps0_4 (StableHlo.after hostOps0_3 (StableHlo.after hostOps0_2 (StableHlo.after hostOps0_1 (StableHlo.after hostOps0 (W0 m ρ c))))) _ = _
  after_results_simp <;> rfl

/-- The node features themselves, untouched by the host's preparation. -/
theorem arg0_eq : W5 m ρ c (Proc.devRef .tc main_arg0) = (m ((c : Thread nD τ).loc main_arg0)) := by
  show StableHlo.after hostOps0_4 (StableHlo.after hostOps0_3 (StableHlo.after hostOps0_2 (StableHlo.after hostOps0_1 (StableHlo.after hostOps0 (W0 m ρ c))))) _ = _
  after_results_simp <;> rfl

theorem arg1_eq : W5 m ρ c (Proc.devRef .tc main_arg1) = (m ((c : Thread nD τ).loc main_arg1)) := by
  show StableHlo.after hostOps0_4 (StableHlo.after hostOps0_3 (StableHlo.after hostOps0_2 (StableHlo.after hostOps0_1 (StableHlo.after hostOps0 (W0 m ρ c))))) _ = _
  after_results_simp <;> rfl

/-! ## Between the launches -/

/-- Each operand of the second launch is the propagation of one result of the first, over the weights kept inside a
    community (the two local parts) or across communities (the two global parts). -/
theorem local_re_eq : W7 m ρ c (Proc.devRef .tc main_v49)
    = Cert.Edges.propagate (W6 m ρ c (Proc.devRef .tc main_v35_0)) (W6 m ρ c (Proc.devRef .tc main_v1))
        (W6 m ρ c (Proc.devRef .tc main_v3)) (W6 m ρ c (Proc.devRef .tc main_v19)) := by
  show StableHlo.after hostOps1 (W6 m ρ c) _ = _
  after_results_simp <;> rfl

theorem local_im_eq : W7 m ρ c (Proc.devRef .tc main_v62)
    = Cert.Edges.propagate (W6 m ρ c (Proc.devRef .tc main_v35_1)) (W6 m ρ c (Proc.devRef .tc main_v1))
        (W6 m ρ c (Proc.devRef .tc main_v3)) (W6 m ρ c (Proc.devRef .tc main_v19)) := by
  show StableHlo.after hostOps1 (W6 m ρ c) _ = _
  after_results_simp <;> rfl

theorem global_re_eq : W7 m ρ c (Proc.devRef .tc main_v76)
    = Cert.Edges.propagate (W6 m ρ c (Proc.devRef .tc main_v35_2)) (W6 m ρ c (Proc.devRef .tc main_v1))
        (W6 m ρ c (Proc.devRef .tc main_v3)) (W6 m ρ c (Proc.devRef .tc main_v20)) := by
  show StableHlo.after hostOps1 (W6 m ρ c) _ = _
  after_results_simp <;> rfl

theorem global_im_eq : W7 m ρ c (Proc.devRef .tc main_v89)
    = Cert.Edges.propagate (W6 m ρ c (Proc.devRef .tc main_v35_3)) (W6 m ρ c (Proc.devRef .tc main_v1))
        (W6 m ρ c (Proc.devRef .tc main_v3)) (W6 m ρ c (Proc.devRef .tc main_v20)) := by
  show StableHlo.after hostOps1 (W6 m ρ c) _ = _
  after_results_simp <;> rfl

theorem mid_arg0_eq : W7 m ρ c (Proc.devRef .tc main_arg0) = W6 m ρ c (Proc.devRef .tc main_arg0) := by
  show StableHlo.after hostOps1 (W6 m ρ c) _ = _
  after_results_simp <;> rfl

theorem mid_arg1_eq : W7 m ρ c (Proc.devRef .tc main_arg1) = W6 m ρ c (Proc.devRef .tc main_arg1) := by
  show StableHlo.after hostOps1 (W6 m ρ c) _ = _
  after_results_simp <;> rfl

/-! ## What the first launch leaves alone -/

/-- The first launch writes only its four result arrays: the edge data and the node features pass through it. -/
theorem src_mid : W6 m ρ c (Proc.devRef .tc main_v1) = val_main_v1 (F := Ideal) (m ((c : Thread nD τ).loc main_arg2)) :=
  (W6_of_ne m ρ c main_v1 (by decide)).trans (src_eq m ρ c)

theorem dst_mid : W6 m ρ c (Proc.devRef .tc main_v3) = val_main_v3 (F := Ideal) (m ((c : Thread nD τ).loc main_arg2)) :=
  (W6_of_ne m ρ c main_v3 (by decide)).trans (dst_eq m ρ c)

theorem intra_mid : W6 m ρ c (Proc.devRef .tc main_v19) = val_main_v19 (F := Ideal) (m ((c : Thread nD τ).loc main_arg2)) (m ((c : Thread nD τ).loc main_arg3)) (m ((c : Thread nD τ).loc main_arg4)) :=
  (W6_of_ne m ρ c main_v19 (by decide)).trans (intra_eq m ρ c)

theorem inter_mid : W6 m ρ c (Proc.devRef .tc main_v20) = val_main_v20 (F := Ideal) (m ((c : Thread nD τ).loc main_arg2)) (m ((c : Thread nD τ).loc main_arg3)) (m ((c : Thread nD τ).loc main_arg4)) :=
  (W6_of_ne m ρ c main_v20 (by decide)).trans (inter_eq m ρ c)

theorem arg0_mid : W7 m ρ c (Proc.devRef .tc main_arg0) = (m ((c : Thread nD τ).loc main_arg0)) :=
  (mid_arg0_eq m ρ c).trans ((W6_of_ne m ρ c main_arg0 (by decide)).trans (arg0_eq m ρ c))

theorem arg1_mid : W7 m ρ c (Proc.devRef .tc main_arg1) = (m ((c : Thread nD τ).loc main_arg1)) :=
  (mid_arg1_eq m ρ c).trans ((W6_of_ne m ρ c main_arg1 (by decide)).trans (arg1_eq m ρ c))

/-! ## After the second launch -/

/-- The result: the second launch's two arrays, each given a last axis of length one, joined along it. -/
theorem result_eq : W9 m ρ c (Proc.devRef .tc main_v93)
    = concatenate S10000x512x2 2
        [⟨S10000x512x1, broadcastInDim S10000x512x1 ![0, 1] bcast_S10000x512_S10000x512x1_0_1 (W8 m ρ c (Proc.devRef .tc main_v90_0))⟩,
         ⟨S10000x512x1, broadcastInDim S10000x512x1 ![0, 1] bcast_S10000x512_S10000x512x1_0_1 (W8 m ρ c (Proc.devRef .tc main_v90_1))⟩]
        concatenates_S10000x512x1_S10000x512x1_S10000x512x2_d2 := by
  show StableHlo.after hostOps2 (W8 m ρ c) _ = _
  after_results_simp <;> rfl

end Cert.KernelIdeal.Reads

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«126010_j61804579389716_1_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.LibLayers.lean ====
/-
  The layers of a graph autoencoder as functions of whole matrices over the extended reals, entry by entry.

  Three primitives build every layer: the matrix product (entry (p, q) is the sum over k of a (p, k) · w (k, q)), the clamp
  below at zero (entry by entry the larger of the entry and the value of the all-zero float word), and the addition of a
  one-row matrix to every row. A graph-convolution layer is `clamp (adj · s)`; a dense layer is `a · w + row`.

  Each primitive has two spellings that denote it: a vector unit's (a product accumulated into zeros, whatever format its
  operands were narrowed to, since narrowing is the identity on exact values; a maximum against a splat zero; a row repeated
  down the rows) and a host's (a contraction of the second axis with the first; a maximum against a broadcast scalar zero; a
  vector broadcast to one row and then down the rows).

  A band of T consecutive rows of a layer's output is the same layer applied to that band of rows of its left operand:
  the product, the clamp and the row addition all act row by row. This is what lets a kernel that walks a matrix in bands
  of rows be read as one function of the whole matrix.
-/
import proofs.«126010_j61804579389716_1_alg».proof.Proof.LibMatProd

noncomputable section

namespace Cert.Layers

open Idealize.ShloMosaic Idealize.ShloMosaic.ValueIdx Cert.LibPlainDot Cert.LibMatProd

/-- A matrix of extended reals with M rows and N columns. -/
abbrev Mat (M N : ℕ) : Type := (⟨2, ![M, N]⟩ : Shape).Idx → EReal

/-- Entry by entry, the larger of the entry and the value of the all-zero float word. -/
def clamp {M N : ℕ} (a : Mat M N) : Mat M N := fun i => max (a i) (Ideal.ofBits .f32 0x00000000#32)

/-- A one-row matrix added to every row: entry (p, q) is a (p, q) + row (0, q). -/
def addRow {M N : ℕ} (a : Mat M N) (row : Mat 1 N) : Mat M N := fun i => a i + row (ix2 (0 : Fin 1) (i 1))

/-- A dense layer: a · w, plus the one-row matrix on every row. -/
def dense {M K N : ℕ} (a : Mat M K) (w : Mat K N) (row : Mat 1 N) : Mat M N := addRow (matProd a w) row

/-- A graph-convolution layer: the aggregation adj · s clamped below at zero. -/
def conv {M K N : ℕ} (adj : Mat M K) (s : Mat K N) : Mat M N := clamp (matProd adj s)

/-- The decoder: three dense layers, the first two clamped below at zero. -/
def decoder {M A B C D : ℕ} (z : Mat M A) (w1 : Mat A B) (b1 : Mat 1 B) (w2 : Mat B C) (b2 : Mat 1 C) (w3 : Mat C D) (b3 : Mat 1 D) :
    Mat M D :=
  dense (clamp (dense (clamp (dense z w1 b1)) w2 b2)) w3 b3

/-! ## A vector unit's spellings -/

/-- A matrix unit's product accumulated into zeros is the matrix product, whatever the operands' formats. -/
theorem unit_prod {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (a : FVec Ideal ⟨2, ![M, K]⟩ φ₁) (w : FVec Ideal ⟨2, ![K, N]⟩ φ₂) :
    matmul d none a w (constant ⟨2, ![M, N]⟩ .f32 0x00000000#32) = matProd (a : Mat M K) (w : Mat K N) := by
  funext j
  obtain ⟨p, q, rfl⟩ : ∃ (p : Fin M) (q : Fin N), j = ix2 p q := ⟨j 0, j 1, eq_ix2 j⟩
  rw [matProd_apply]
  refine (Ideal.matmul_constant_zero_apply d none a w (ix2 p q)).trans ?_
  exact plain_sum d h1 h2 h3 h4 h5 h6 a w p q

/-- A maximum against the splat of the zero word is the clamp. -/
theorem unit_clamp {M N : ℕ} (a : FVec Ideal ⟨2, ![M, N]⟩ .f32) :
    maximumf a (broadcast ⟨2, ![M, N]⟩ (Scalar.ofBits (F := Ideal) .f32 0x00000000#32)) = clamp (a : Mat M N) := rfl

/-- A one-row matrix, through an identity re-lay, repeated down the rows and added: the row addition. -/
theorem unit_addRow {M N : ℕ} (a : FVec Ideal ⟨2, ![M, N]⟩ .f32) (row : FVec Ideal ⟨2, ![1, N]⟩ .f32)
    (h2 : (⟨2, ![1, N]⟩ : Shape).ShapeCasts ⟨2, ![1, N]⟩) (hb : (⟨2, ![1, N]⟩ : Shape).Broadcasts ⟨2, ![M, N]⟩) :
    addf a (broadcastTo ⟨2, ![M, N]⟩ (shapeCast ⟨2, ![1, N]⟩ row h2) hb) = addRow (a : Mat M N) (row : Mat 1 N) := by
  funext j
  obtain ⟨p, q, rfl⟩ : ∃ (p : Fin M) (q : Fin N), j = ix2 p q := ⟨j 0, j 1, eq_ix2 j⟩
  rw [shapeCast_self, addf_apply, broadcastTo_1b_ab_apply]
  rfl

/-! ## A host's spellings -/

/-- A host contraction of the second axis with the first is the matrix product. -/
theorem host_prod {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (a : FVec Ideal ⟨2, ![M, K]⟩ .f32) (w : FVec Ideal ⟨2, ![K, N]⟩ .f32) :
    Host.dotGeneral (F := Ideal) d none a w = matProd (a : Mat M K) (w : Mat K N) :=
  host_dot_eq d h1 h2 h3 h4 h5 h6 a w

/-- A maximum against the broadcast scalar zero is the clamp. -/
theorem host_clamp {M N : ℕ} (a : FVec Ideal ⟨2, ![M, N]⟩ .f32) (h0 : (⟨0, ![]⟩ : Shape).BroadcastsInDim ⟨2, ![M, N]⟩ ![]) :
    maximumf a (broadcastInDim ⟨2, ![M, N]⟩ ![] h0 (constant (F := Ideal) ⟨0, ![]⟩ .f32 0x00000000#32)) = clamp (a : Mat M N) := by
  funext j
  have hz : broadcastInDim ⟨2, ![M, N]⟩ ![] h0 (constant (F := Ideal) ⟨0, ![]⟩ .f32 0x00000000#32) j
      = Ideal.ofBits .f32 0x00000000#32 :=
    (broadcastInDim_apply _ h0 _ _ (fun a => a.elim0) (fun ax => ax.elim0)).trans rfl
  rw [maximumf_apply, hz]
  rfl

/-- The one-row matrix that a vector re-laid as one row is: entry (0, q) is the vector's entry q. -/
def rowOf {N : ℕ} (b : (⟨1, ![N]⟩ : Shape).Idx → EReal) : Mat 1 N := fun i => b (ix1 (i 1))

/-- A vector broadcast to one row and then down the rows, added: the row addition of the vector as a row. -/
theorem host_addRow {M N : ℕ} (a : FVec Ideal ⟨2, ![M, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf a (broadcastInDim ⟨2, ![M, N]⟩ ![0, 1] hbc (broadcastInDim ⟨2, ![1, N]⟩ ![1] hr b)) = addRow (a : Mat M N) (rowOf b) := by
  funext j
  obtain ⟨p, q, rfl⟩ : ∃ (p : Fin M) (q : Fin N), j = ix2 p q := ⟨j 0, j 1, eq_ix2 j⟩
  rw [addf_apply, bcast_1b_ab_apply, bcast_a_1a_apply]
  rfl

/-- A vector re-laid as one row by a reshape is the same one-row matrix. -/
theorem reshape_row {N : ℕ} (b : (⟨1, ![N]⟩ : Shape).Idx → EReal) (h : (⟨1, ![N]⟩ : Shape).ShapeCasts ⟨2, ![1, N]⟩) :
    shapeCast ⟨2, ![1, N]⟩ b h = rowOf b := by
  funext j
  obtain ⟨u, q, rfl⟩ : ∃ (u : Fin 1) (q : Fin N), j = ix2 u q := ⟨j 0, j 1, eq_ix2 j⟩
  exact shapeCast_a_1a_apply b h u q

/-! ## Bands of rows -/

/-- Rows r, …, r + T − 1 of a matrix. -/
def band {M N : ℕ} (T r : ℕ) (h : r + T ≤ M) (a : Mat M N) : Mat T N :=
  fun y => a (ix2 ⟨r + (y 0).val, by have := idx2_lt0 y; omega⟩ (y 1))

theorem band_prod {M K N : ℕ} (T r : ℕ) (h : r + T ≤ M) (a : Mat M K) (w : Mat K N) :
    matProd (band T r h a) w = band T r h (matProd a w) := rfl

theorem band_clamp {M N : ℕ} (T r : ℕ) (h : r + T ≤ M) (a : Mat M N) : clamp (band T r h a) = band T r h (clamp a) := rfl

theorem band_addRow {M N : ℕ} (T r : ℕ) (h : r + T ≤ M) (a : Mat M N) (row : Mat 1 N) :
    addRow (band T r h a) row = band T r h (addRow a row) := rfl

theorem band_conv {M K N : ℕ} (T r : ℕ) (h : r + T ≤ M) (adj : Mat M K) (s : Mat K N) :
    conv (band T r h adj) s = band T r h (conv adj s) := rfl

theorem band_dense {M K N : ℕ} (T r : ℕ) (h : r + T ≤ M) (a : Mat M K) (w : Mat K N) (row : Mat 1 N) :
    dense (band T r h a) w row = band T r h (dense a w row) := rfl

theorem band_decoder {M A B C D : ℕ} (T r : ℕ) (h : r + T ≤ M) (z : Mat M A) (w1 : Mat A B) (b1 : Mat 1 B) (w2 : Mat B C)
    (b2 : Mat 1 C) (w3 : Mat C D) (b3 : Mat 1 D) :
    decoder (band T r h z) w1 b1 w2 b2 w3 b3 = band T r h (decoder z w1 b1 w2 b2 w3 b3) := rfl

/-- The band's entry at y is the matrix's entry at the index whose row is r plus y's row and whose column is y's. -/
theorem band_apply {M N : ℕ} (T r : ℕ) (h : r + T ≤ M) (a : Mat M N) (y : (⟨2, ![T, N]⟩ : Shape).Idx)
    (i : (⟨2, ![M, N]⟩ : Shape).Idx) (hi0 : (i 0).val = r + (y 0).val) (hi1 : (i 1).val = (y 1).val) :
    band T r h a y = a i := by
  refine congrArg a (funext fun d => Fin.ext ?_)
  match d with
  | ⟨0, _⟩ => exact hi0.symm
  | ⟨1, _⟩ => exact hi1.symm

/-- The band of all the rows is the matrix. -/
theorem band_all {M N : ℕ} (h : 0 + M ≤ M) (a : Mat M N) : band M 0 h a = a :=
  funext fun y => band_apply M 0 h a y y (Nat.zero_add _).symm rfl

end Cert.Layers

end
-- ==== Proof.Linear.lean ====
/-
  The complex linear map of the first launch as functions of whole matrices over the extended reals.

  A complex matrix X1 + i X2 times a complex matrix Wa + i Wb, plus a complex row, has real part
  (X1 · Wa − X2 · Wb) + row and imaginary part (X1 · Wb + X2 · Wa) + row, the row added to every row of the product.
  Both act row by row: a band of consecutive rows of either part is the same function of that band of rows of X1 and X2.

  The first launch walks the 10000 rows in 25 bands of 400. At each band it multiplies the band of X1 and of X2 by the
  whole weight matrices into zero accumulators, subtracts or adds, adds the bias row, and narrows to bf16 (the identity
  on exact values). So what band t writes back is band t of the whole-matrix function, the 25 bands cover the rows, and
  each of the four output arrays ends holding the whole-matrix function of the arrays the launch found.
-/
import proofs.«126010_j61804579389716_1_alg».proof.Proof.Gen.KernelIdeal.Frame
import proofs.«126010_j61804579389716_1_alg».proof.Proof.LibLayers
import Idealize.ShloMosaic.Lib.Pipeline.Value

set_option maxRecDepth 16384

noncomputable section

namespace Cert.Linear

open Idealize.ShloMosaic Idealize.ShloMosaic.TcCoe Idealize.ShloMosaic.ValueIdx Idealize.SL.Sem
open Idealize.ShloMosaic.Pipeline (Dat)
open Cert.Layers Cert.LibMatProd
open Cert.KernelIdeal Cert.KernelIdeal.Gen

/-- The real part of a complex linear map: (X1 · Wa − X2 · Wb), plus the row on every row. -/
def linRe {M K N : ℕ} (X1 X2 : Mat M K) (Wa Wb : Mat K N) (row : Mat 1 N) : Mat M N :=
  addRow (fun i => matProd X1 Wa i - matProd X2 Wb i) row

/-- The imaginary part of a complex linear map: (X1 · Wb + X2 · Wa), plus the row on every row. -/
def linIm {M K N : ℕ} (X1 X2 : Mat M K) (Wa Wb : Mat K N) (row : Mat 1 N) : Mat M N :=
  addRow (fun i => matProd X1 Wb i + matProd X2 Wa i) row

/-- A band of rows of the real part is the real part of the band of rows of the two left operands. -/
theorem band_linRe {M K N : ℕ} (T r : ℕ) (h : r + T ≤ M) (X1 X2 : Mat M K) (Wa Wb : Mat K N) (row : Mat 1 N) :
    linRe (band T r h X1) (band T r h X2) Wa Wb row = band T r h (linRe X1 X2 Wa Wb row) := rfl

/-- A band of rows of the imaginary part is the imaginary part of the band of rows of the two left operands. -/
theorem band_linIm {M K N : ℕ} (T r : ℕ) (h : r + T ≤ M) (X1 X2 : Mat M K) (Wa Wb : Mat K N) (row : Mat 1 N) :
    linIm (band T r h X1) (band T r h X2) Wa Wb row = band T r h (linIm X1 X2 Wa Wb row) := rfl

/-! ## One band: what the body computes from its blocks -/

/-- The payload stored into output 10 (the l weights, real part): the two products subtracted, the row added, narrowed. -/
theorem pay10 (x0 x1 : Vec Ideal S400x512 .bf16) (w2 w3 : Vec Ideal S512x512 .bf16) (b : Vec Ideal S1x512 .f32) :
    k0_pay1 (k0_pay13 x0 x1 w2 w3 b) = linRe (x0 : Mat 400 512) x1 w2 w3 b := by
  have e1 := unit_prod (φ₁ := .bf16) (φ₂ := .bf16) dot_S400x512_S512x512_S400x512_1_0_0_1_n_n rfl rfl rfl rfl rfl rfl x0 w2
  have e2 := unit_prod (φ₁ := .bf16) (φ₂ := .bf16) dot_S400x512_S512x512_S400x512_1_0_0_1_n_n rfl rfl rfl rfl rfl rfl x1 w3
  unfold k0_pay1 k0_pay13 k0_pay5 k0_pay6 k0_pay7 k0_pay8
  simp only [shapeCast_self]
  rw [e1, e2]
  have e3 := unit_addRow (fun i => matProd (x0 : Mat 400 512) w2 i - matProd (x1 : Mat 400 512) w3 i) b shapeCasts_S1x512_S1x512 broadcasts_S1x512_S400x512
  rw [shapeCast_self] at e3
  exact e3

/-- The payload stored into output 11 (the l weights, imaginary part): the two products added, the row added, narrowed. -/
theorem pay11 (x0 x1 : Vec Ideal S400x512 .bf16) (w2 w3 : Vec Ideal S512x512 .bf16) (b : Vec Ideal S1x512 .f32) :
    k0_pay2 (k0_pay14 x0 x1 w2 w3 b) = linIm (x0 : Mat 400 512) x1 w2 w3 b := by
  have e1 := unit_prod (φ₁ := .bf16) (φ₂ := .bf16) dot_S400x512_S512x512_S400x512_1_0_0_1_n_n rfl rfl rfl rfl rfl rfl x0 w3
  have e2 := unit_prod (φ₁ := .bf16) (φ₂ := .bf16) dot_S400x512_S512x512_S400x512_1_0_0_1_n_n rfl rfl rfl rfl rfl rfl x1 w2
  unfold k0_pay2 k0_pay14 k0_pay5 k0_pay6 k0_pay7 k0_pay8
  simp only [shapeCast_self]
  rw [e1, e2]
  have e3 := unit_addRow (fun i => matProd (x0 : Mat 400 512) w3 i + matProd (x1 : Mat 400 512) w2 i) b shapeCasts_S1x512_S1x512 broadcasts_S1x512_S400x512
  rw [shapeCast_self] at e3
  exact e3

/-- The payload stored into output 12 (the g weights, real part). -/
theorem pay12 (x0 x1 : Vec Ideal S400x512 .bf16) (w4 w5 : Vec Ideal S512x512 .bf16) (b : Vec Ideal S1x512 .f32) :
    k0_pay3 (k0_pay11 x0 x1 w4 w5) b = linRe (x0 : Mat 400 512) x1 w4 w5 b := by
  have e1 := unit_prod (φ₁ := .bf16) (φ₂ := .bf16) dot_S400x512_S512x512_S400x512_1_0_0_1_n_n rfl rfl rfl rfl rfl rfl x0 w4
  have e2 := unit_prod (φ₁ := .bf16) (φ₂ := .bf16) dot_S400x512_S512x512_S400x512_1_0_0_1_n_n rfl rfl rfl rfl rfl rfl x1 w5
  unfold k0_pay3 k0_pay11 k0_pay5 k0_pay6 k0_pay9 k0_pay10
  simp only [shapeCast_self]
  rw [e1, e2]
  have e3 := unit_addRow (fun i => matProd (x0 : Mat 400 512) w4 i - matProd (x1 : Mat 400 512) w5 i) b shapeCasts_S1x512_S1x512 broadcasts_S1x512_S400x512
  rw [shapeCast_self] at e3
  exact e3

/-- The payload stored into output 13 (the g weights, imaginary part). -/
theorem pay13 (x0 x1 : Vec Ideal S400x512 .bf16) (w4 w5 : Vec Ideal S512x512 .bf16) (b : Vec Ideal S1x512 .f32) :
    k0_pay4 (k0_pay12 x0 x1 w4 w5) b = linIm (x0 : Mat 400 512) x1 w4 w5 b := by
  have e1 := unit_prod (φ₁ := .bf16) (φ₂ := .bf16) dot_S400x512_S512x512_S400x512_1_0_0_1_n_n rfl rfl rfl rfl rfl rfl x0 w5
  have e2 := unit_prod (φ₁ := .bf16) (φ₂ := .bf16) dot_S400x512_S512x512_S400x512_1_0_0_1_n_n rfl rfl rfl rfl rfl rfl x1 w4
  unfold k0_pay4 k0_pay12 k0_pay5 k0_pay6 k0_pay9 k0_pay10
  simp only [shapeCast_self]
  rw [e1, e2]
  have e3 := unit_addRow (fun i => matProd (x0 : Mat 400 512) w5 i + matProd (x1 : Mat 400 512) w4 i) b shapeCasts_S1x512_S1x512 broadcasts_S1x512_S400x512
  rw [shapeCast_self] at e3
  exact e3

/-! ## The 25 points: which block each window holds -/

variable (V : (c : Dev nD) → (b : Ref sig .tc) → Buf (Elt Ideal) ((c : Thread nD τ).loc b))

theorem hz : (![0, 0] : Fin 2 → Nat) = fun _ => 0 := funext fun a => by fin_cases a <;> rfl

/-- The row windows (the two inputs X1, X2 and the four outputs) hold band t at point t. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-- The weight and bias windows hold their whole array at every point. -/
theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Band t lies inside the 10000 rows. -/
theorem hband (t : Fin cfg0.N) : 400 * t.val + 400 ≤ 10000 := by
  have hN : cfg0.N = 25 := N_0
  have := t.isLt
  omega

/-! ## Each input window's block, read off its array -/

/-- Input window 0's block at point t is band t of its array. -/
theorem iblk_0 (c : Dev nD) (t : Fin cfg0.N) :
    (iblk0 V c 0 t : Mat 400 512) = band 400 (400 * t.val) (hband t) (V c main_v21 : Mat 10000 512) := by
  obtain ⟨⟨e0, e1⟩, -⟩ := idx_rows t
  funext j
  unfold iblk0
  rw [View.read_apply]
  show V c main_v21 _ = V c main_v21 _
  congr 1
  funext a
  apply Fin.ext
  match a with
  | ⟨0, _⟩ => show win0_0.index t 0 * 400 + 1 * (j 0).val = 400 * t.val + (j 0).val; rw [e0]; omega
  | ⟨1, _⟩ => show win0_0.index t 1 * 512 + 1 * (j 1).val = (j 1).val; rw [e1]; omega

/-- Input window 1's block at point t is band t of its array. -/
theorem iblk_1 (c : Dev nD) (t : Fin cfg0.N) :
    (iblk0 V c 1 t : Mat 400 512) = band 400 (400 * t.val) (hband t) (V c main_v22 : Mat 10000 512) := by
  obtain ⟨-, ⟨e0, e1⟩, -⟩ := idx_rows t
  funext j
  unfold iblk0
  rw [View.read_apply]
  show V c main_v22 _ = V c main_v22 _
  congr 1
  funext a
  apply Fin.ext
  match a with
  | ⟨0, _⟩ => show win0_1.index t 0 * 400 + 1 * (j 0).val = 400 * t.val + (j 0).val; rw [e0]; omega
  | ⟨1, _⟩ => show win0_1.index t 1 * 512 + 1 * (j 1).val = (j 1).val; rw [e1]; omega

/-- Input window 2's block at every point is its whole array. -/
theorem iblk_2 (c : Dev nD) (t : Fin cfg0.N) :
    (iblk0 V c 2 t : Mat 512 512) = (V c main_v24 : Mat 512 512) := by
  obtain ⟨⟨e0, e1⟩, -⟩ := idx_whole t
  funext j
  unfold iblk0
  rw [View.read_apply]
  show V c main_v24 _ = V c main_v24 _
  congr 1
  funext a
  apply Fin.ext
  match a with
  | ⟨0, _⟩ => show win0_2.index t 0 * 512 + 1 * (j 0).val = (j 0).val; rw [e0]; omega
  | ⟨1, _⟩ => show win0_2.index t 1 * 512 + 1 * (j 1).val = (j 1).val; rw [e1]; omega

/-- Input window 3's block at every point is its whole array. -/
theorem iblk_3 (c : Dev nD) (t : Fin cfg0.N) :
    (iblk0 V c 3 t : Mat 512 512) = (V c main_v26 : Mat 512 512) := by
  obtain ⟨-, ⟨e0, e1⟩, -⟩ := idx_whole t
  funext j
  unfold iblk0
  rw [View.read_apply]
  show V c main_v26 _ = V c main_v26 _
  congr 1
  funext a
  apply Fin.ext
  match a with
  | ⟨0, _⟩ => show win0_3.index t 0 * 512 + 1 * (j 0).val = (j 0).val; rw [e0]; omega
  | ⟨1, _⟩ => show win0_3.index t 1 * 512 + 1 * (j 1).val = (j 1).val; rw [e1]; omega

/-- Input window 4's block at every point is its whole array. -/
theorem iblk_4 (c : Dev nD) (t : Fin cfg0.N) :
    (iblk0 V c 4 t : Mat 512 512) = (V c main_v28 : Mat 512 512) := by
  obtain ⟨-, -, ⟨e0, e1⟩, -⟩ := idx_whole t
  funext j
  unfold iblk0
  rw [View.read_apply]
  show V c main_v28 _ = V c main_v28 _
  congr 1
  funext a
  apply Fin.ext
  match a with
  | ⟨0, _⟩ => show win0_4.index t 0 * 512 + 1 * (j 0).val = (j 0).val; rw [e0]; omega
  | ⟨1, _⟩ => show win0_4.index t 1 * 512 + 1 * (j 1).val = (j 1).val; rw [e1]; omega

/-- Input window 5's block at every point is its whole array. -/
theorem iblk_5 (c : Dev nD) (t : Fin cfg0.N) :
    (iblk0 V c 5 t : Mat 512 512) = (V c main_v30 : Mat 512 512) := by
  obtain ⟨-, -, -, ⟨e0, e1⟩, -⟩ := idx_whole t
  funext j
  unfold iblk0
  rw [View.read_apply]
  show V c main_v30 _ = V c main_v30 _
  congr 1
  funext a
  apply Fin.ext
  match a with
  | ⟨0, _⟩ => show win0_5.index t 0 * 512 + 1 * (j 0).val = (j 0).val; rw [e0]; omega
  | ⟨1, _⟩ => show win0_5.index t 1 * 512 + 1 * (j 1).val = (j 1).val; rw [e1]; omega

/-- Input window 6's block at every point is its whole array. -/
theorem iblk_6 (c : Dev nD) (t : Fin cfg0.N) :
    (iblk0 V c 6 t : Mat 1 512) = (V c main_v31 : Mat 1 512) := by
  obtain ⟨-, -, -, -, ⟨e0, e1⟩, -⟩ := idx_whole t
  funext j
  unfold iblk0
  rw [View.read_apply]
  show V c main_v31 _ = V c main_v31 _
  congr 1
  funext a
  apply Fin.ext
  match a with
  | ⟨0, _⟩ => show win0_6.index t 0 * 1 + 1 * (j 0).val = (j 0).val; rw [e0]; omega
  | ⟨1, _⟩ => show win0_6.index t 1 * 512 + 1 * (j 1).val = (j 1).val; rw [e1]; omega

/-- Input window 7's block at every point is its whole array. -/
theorem iblk_7 (c : Dev nD) (t : Fin cfg0.N) :
    (iblk0 V c 7 t : Mat 1 512) = (V c main_v32 : Mat 1 512) := by
  obtain ⟨-, -, -, -, -, ⟨e0, e1⟩, -⟩ := idx_whole t
  funext j
  unfold iblk0
  rw [View.read_apply]
  show V c main_v32 _ = V c main_v32 _
  congr 1
  funext a
  apply Fin.ext
  match a with
  | ⟨0, _⟩ => show win0_7.index t 0 * 1 + 1 * (j 0).val = (j 0).val; rw [e0]; omega
  | ⟨1, _⟩ => show win0_7.index t 1 * 512 + 1 * (j 1).val = (j 1).val; rw [e1]; omega

/-- Input window 8's block at every point is its whole array. -/
theorem iblk_8 (c : Dev nD) (t : Fin cfg0.N) :
    (iblk0 V c 8 t : Mat 1 512) = (V c main_v33 : Mat 1 512) := by
  obtain ⟨-, -, -, -, -, -, ⟨e0, e1⟩, -⟩ := idx_whole t
  funext j
  unfold iblk0
  rw [View.read_apply]
  show V c main_v33 _ = V c main_v33 _
  congr 1
  funext a
  apply Fin.ext
  match a with
  | ⟨0, _⟩ => show win0_8.index t 0 * 1 + 1 * (j 0).val = (j 0).val; rw [e0]; omega
  | ⟨1, _⟩ => show win0_8.index t 1 * 512 + 1 * (j 1).val = (j 1).val; rw [e1]; omega

/-- Input window 9's block at every point is its whole array. -/
theorem iblk_9 (c : Dev nD) (t : Fin cfg0.N) :
    (iblk0 V c 9 t : Mat 1 512) = (V c main_v34 : Mat 1 512) := by
  obtain ⟨-, -, -, -, -, -, -, ⟨e0, e1⟩⟩ := idx_whole t
  funext j
  unfold iblk0
  rw [View.read_apply]
  show V c main_v34 _ = V c main_v34 _
  congr 1
  funext a
  apply Fin.ext
  match a with
  | ⟨0, _⟩ => show win0_9.index t 0 * 1 + 1 * (j 0).val = (j 0).val; rw [e0]; omega
  | ⟨1, _⟩ => show win0_9.index t 1 * 512 + 1 * (j 1).val = (j 1).val; rw [e1]; omega

/-! ## Output window 10 -/

/-- Reading an array through point t's block of output window 10 takes band t of it. -/
theorem blk10_read (G : Mat 10000 512) (t : Fin cfg0.N) :
    (((cfg0.win 10).blk t).view.read (Elt Ideal) G : Mat 400 512) = band 400 (400 * t.val) (hband t) G := by
  obtain ⟨-, -, ⟨e0, e1⟩, -⟩ := idx_rows t
  funext j
  rw [View.read_apply]
  show G _ = G _
  congr 1
  funext a
  apply Fin.ext
  match a with
  | ⟨0, _⟩ => show win0_10.index t 0 * 400 + 1 * (j 0).val = 400 * t.val + (j 0).val; rw [e0]; omega
  | ⟨1, _⟩ => show win0_10.index t 1 * 512 + 1 * (j 1).val = (j 1).val; rw [e1]; omega

/-- What point t writes back into output 10 is band t of the whole-matrix function of the arrays the launch found. -/
theorem flushed10_eq (c : Dev nD) (t : Fin cfg0.N) :
    (dat0 V c).flushed 10 t = ((cfg0.win 10).blk t).view.read (Elt Ideal) (linRe (V c main_v21 : Mat 10000 512) (V c main_v22 : Mat 10000 512) (V c main_v24 : Mat 512 512) (V c main_v26 : Mat 512 512) (V c main_v31 : Mat 1 512)) := by
  show (cfg0.win 10).cut (grid0.coords t) ((dat0 V c).after 10 t) = _
  rw [after0_10]
  unfold out0_10
  rw [View.canon_unit_zero hz]
  simp only [View.ld_unit_zero (S := S400x512) hz, View.ld_unit_zero (S := S512x512) hz, View.ld_unit_zero (S := S1x512) hz]
  refine (pay10 (iblk0 V c 0 t) (iblk0 V c 1 t) (iblk0 V c 2 t) (iblk0 V c 3 t) (iblk0 V c 6 t)).trans ?_
  rw [iblk_0 V c t, iblk_1 V c t, iblk_2 V c t, iblk_3 V c t, iblk_6 V c t, blk10_read]
  rfl

/-- An index of output 10's array is in point t's block iff each coordinate is in the block's range on its axis. -/
theorem mem_blk10 (t : Fin cfg0.N) (i : S10000x512.Idx) :
    i ∈ ((cfg0.win 10).blk t).view.set ↔ ∀ a : Fin 2, win0_10.index t a * S400x512.size a ≤ (i a).val ∧ (i a).val < win0_10.index t a * S400x512.size a + S400x512.size a := by
  show i ∈ ((View.whole main_v35_0).slice (win0_10.rect t)).set ↔ _
  rw [View.set_slice_whole, Rect.mem_set_unit]
  exact Iff.rfl

/-- The 25 bands cover output 10's array: row r is in the block of point r / 400. -/
theorem cover10 (i : S10000x512.Idx) :
    ∃ t : Fin cfg0.N, (cfg0.win 10).flush t = true ∧ i ∈ ((cfg0.win 10).blk t).view.set := by
  have hi0 : (i 0).val < 10000 := (i 0).isLt
  have hi1 : (i 1).val < 512 := (i 1).isLt
  have hN : cfg0.N = 25 := N_0
  have ht : (i 0).val / 400 < cfg0.N := by omega
  obtain ⟨-, -, ⟨e0, e1⟩, -⟩ := idx_rows ⟨(i 0).val / 400, ht⟩
  refine ⟨⟨(i 0).val / 400, ht⟩, flush0_10 _, ?_⟩
  rw [mem_blk10]
  intro a
  match a with
  | ⟨0, _⟩ =>
    show win0_10.index ⟨(i 0).val / 400, ht⟩ 0 * 400 ≤ (i 0).val ∧ (i 0).val < win0_10.index ⟨(i 0).val / 400, ht⟩ 0 * 400 + 400
    rw [e0]; dsimp only; omega
  | ⟨1, _⟩ =>
    show win0_10.index ⟨(i 0).val / 400, ht⟩ 1 * 512 ≤ (i 1).val ∧ (i 1).val < win0_10.index ⟨(i 0).val / 400, ht⟩ 1 * 512 + 512
    rw [e1]; omega

/-- Output 10's array after the launch. -/
theorem final10 (c : Dev nD) :
    (dat0 V c).arrAt 10 cfg0.N = linRe (V c main_v21 : Mat 10000 512) (V c main_v22 : Mat 10000 512) (V c main_v24 : Mat 512 512) (V c main_v26 : Mat 512 512) (V c main_v31 : Mat 1 512) :=
  (dat0 V c).arrAt_eq_of_cover 10 (linRe (V c main_v21 : Mat 10000 512) (V c main_v22 : Mat 10000 512) (V c main_v24 : Mat 512 512) (V c main_v26 : Mat 512 512) (V c main_v31 : Mat 1 512)) (fun t _ => flushed10_eq V c t) cover10

/-! ## Output window 11 -/

/-- Reading an array through point t's block of output window 11 takes band t of it. -/
theorem blk11_read (G : Mat 10000 512) (t : Fin cfg0.N) :
    (((cfg0.win 11).blk t).view.read (Elt Ideal) G : Mat 400 512) = band 400 (400 * t.val) (hband t) G := by
  obtain ⟨-, -, -, ⟨e0, e1⟩, -⟩ := idx_rows t
  funext j
  rw [View.read_apply]
  show G _ = G _
  congr 1
  funext a
  apply Fin.ext
  match a with
  | ⟨0, _⟩ => show win0_11.index t 0 * 400 + 1 * (j 0).val = 400 * t.val + (j 0).val; rw [e0]; omega
  | ⟨1, _⟩ => show win0_11.index t 1 * 512 + 1 * (j 1).val = (j 1).val; rw [e1]; omega

/-- What point t writes back into output 11 is band t of the whole-matrix function of the arrays the launch found. -/
theorem flushed11_eq (c : Dev nD) (t : Fin cfg0.N) :
    (dat0 V c).flushed 11 t = ((cfg0.win 11).blk t).view.read (Elt Ideal) (linIm (V c main_v21 : Mat 10000 512) (V c main_v22 : Mat 10000 512) (V c main_v24 : Mat 512 512) (V c main_v26 : Mat 512 512) (V c main_v32 : Mat 1 512)) := by
  show (cfg0.win 11).cut (grid0.coords t) ((dat0 V c).after 11 t) = _
  rw [after0_11]
  unfold out0_11
  rw [View.canon_unit_zero hz]
  simp only [View.ld_unit_zero (S := S400x512) hz, View.ld_unit_zero (S := S512x512) hz, View.ld_unit_zero (S := S1x512) hz]
  refine (pay11 (iblk0 V c 0 t) (iblk0 V c 1 t) (iblk0 V c 2 t) (iblk0 V c 3 t) (iblk0 V c 7 t)).trans ?_
  rw [iblk_0 V c t, iblk_1 V c t, iblk_2 V c t, iblk_3 V c t, iblk_7 V c t, blk11_read]
  rfl

/-- An index of output 11's array is in point t's block iff each coordinate is in the block's range on its axis. -/
theorem mem_blk11 (t : Fin cfg0.N) (i : S10000x512.Idx) :
    i ∈ ((cfg0.win 11).blk t).view.set ↔ ∀ a : Fin 2, win0_11.index t a * S400x512.size a ≤ (i a).val ∧ (i a).val < win0_11.index t a * S400x512.size a + S400x512.size a := by
  show i ∈ ((View.whole main_v35_1).slice (win0_11.rect t)).set ↔ _
  rw [View.set_slice_whole, Rect.mem_set_unit]
  exact Iff.rfl

/-- The 25 bands cover output 11's array: row r is in the block of point r / 400. -/
theorem cover11 (i : S10000x512.Idx) :
    ∃ t : Fin cfg0.N, (cfg0.win 11).flush t = true ∧ i ∈ ((cfg0.win 11).blk t).view.set := by
  have hi0 : (i 0).val < 10000 := (i 0).isLt
  have hi1 : (i 1).val < 512 := (i 1).isLt
  have hN : cfg0.N = 25 := N_0
  have ht : (i 0).val / 400 < cfg0.N := by omega
  obtain ⟨-, -, -, ⟨e0, e1⟩, -⟩ := idx_rows ⟨(i 0).val / 400, ht⟩
  refine ⟨⟨(i 0).val / 400, ht⟩, flush0_11 _, ?_⟩
  rw [mem_blk11]
  intro a
  match a with
  | ⟨0, _⟩ =>
    show win0_11.index ⟨(i 0).val / 400, ht⟩ 0 * 400 ≤ (i 0).val ∧ (i 0).val < win0_11.index ⟨(i 0).val / 400, ht⟩ 0 * 400 + 400
    rw [e0]; dsimp only; omega
  | ⟨1, _⟩ =>
    show win0_11.index ⟨(i 0).val / 400, ht⟩ 1 * 512 ≤ (i 1).val ∧ (i 1).val < win0_11.index ⟨(i 0).val / 400, ht⟩ 1 * 512 + 512
    rw [e1]; omega

/-- Output 11's array after the launch. -/
theorem final11 (c : Dev nD) :
    (dat0 V c).arrAt 11 cfg0.N = linIm (V c main_v21 : Mat 10000 512) (V c main_v22 : Mat 10000 512) (V c main_v24 : Mat 512 512) (V c main_v26 : Mat 512 512) (V c main_v32 : Mat 1 512) :=
  (dat0 V c).arrAt_eq_of_cover 11 (linIm (V c main_v21 : Mat 10000 512) (V c main_v22 : Mat 10000 512) (V c main_v24 : Mat 512 512) (V c main_v26 : Mat 512 512) (V c main_v32 : Mat 1 512)) (fun t _ => flushed11_eq V c t) cover11

/-! ## Output window 12 -/

/-- Reading an array through point t's block of output window 12 takes band t of it. -/
theorem blk12_read (G : Mat 10000 512) (t : Fin cfg0.N) :
    (((cfg0.win 12).blk t).view.read (Elt Ideal) G : Mat 400 512) = band 400 (400 * t.val) (hband t) G := by
  obtain ⟨-, -, -, -, ⟨e0, e1⟩, -⟩ := idx_rows t
  funext j
  rw [View.read_apply]
  show G _ = G _
  congr 1
  funext a
  apply Fin.ext
  match a with
  | ⟨0, _⟩ => show win0_12.index t 0 * 400 + 1 * (j 0).val = 400 * t.val + (j 0).val; rw [e0]; omega
  | ⟨1, _⟩ => show win0_12.index t 1 * 512 + 1 * (j 1).val = (j 1).val; rw [e1]; omega

/-- What point t writes back into output 12 is band t of the whole-matrix function of the arrays the launch found. -/
theorem flushed12_eq (c : Dev nD) (t : Fin cfg0.N) :
    (dat0 V c).flushed 12 t = ((cfg0.win 12).blk t).view.read (Elt Ideal) (linRe (V c main_v21 : Mat 10000 512) (V c main_v22 : Mat 10000 512) (V c main_v28 : Mat 512 512) (V c main_v30 : Mat 512 512) (V c main_v33 : Mat 1 512)) := by
  show (cfg0.win 12).cut (grid0.coords t) ((dat0 V c).after 12 t) = _
  rw [after0_12]
  unfold out0_12
  rw [View.canon_unit_zero hz]
  simp only [View.ld_unit_zero (S := S400x512) hz, View.ld_unit_zero (S := S512x512) hz, View.ld_unit_zero (S := S1x512) hz]
  refine (pay12 (iblk0 V c 0 t) (iblk0 V c 1 t) (iblk0 V c 4 t) (iblk0 V c 5 t) (iblk0 V c 8 t)).trans ?_
  rw [iblk_0 V c t, iblk_1 V c t, iblk_4 V c t, iblk_5 V c t, iblk_8 V c t, blk12_read]
  rfl

/-- An index of output 12's array is in point t's block iff each coordinate is in the block's range on its axis. -/
theorem mem_blk12 (t : Fin cfg0.N) (i : S10000x512.Idx) :
    i ∈ ((cfg0.win 12).blk t).view.set ↔ ∀ a : Fin 2, win0_12.index t a * S400x512.size a ≤ (i a).val ∧ (i a).val < win0_12.index t a * S400x512.size a + S400x512.size a := by
  show i ∈ ((View.whole main_v35_2).slice (win0_12.rect t)).set ↔ _
  rw [View.set_slice_whole, Rect.mem_set_unit]
  exact Iff.rfl

/-- The 25 bands cover output 12's array: row r is in the block of point r / 400. -/
theorem cover12 (i : S10000x512.Idx) :
    ∃ t : Fin cfg0.N, (cfg0.win 12).flush t = true ∧ i ∈ ((cfg0.win 12).blk t).view.set := by
  have hi0 : (i 0).val < 10000 := (i 0).isLt
  have hi1 : (i 1).val < 512 := (i 1).isLt
  have hN : cfg0.N = 25 := N_0
  have ht : (i 0).val / 400 < cfg0.N := by omega
  obtain ⟨-, -, -, -, ⟨e0, e1⟩, -⟩ := idx_rows ⟨(i 0).val / 400, ht⟩
  refine ⟨⟨(i 0).val / 400, ht⟩, flush0_12 _, ?_⟩
  rw [mem_blk12]
  intro a
  match a with
  | ⟨0, _⟩ =>
    show win0_12.index ⟨(i 0).val / 400, ht⟩ 0 * 400 ≤ (i 0).val ∧ (i 0).val < win0_12.index ⟨(i 0).val / 400, ht⟩ 0 * 400 + 400
    rw [e0]; dsimp only; omega
  | ⟨1, _⟩ =>
    show win0_12.index ⟨(i 0).val / 400, ht⟩ 1 * 512 ≤ (i 1).val ∧ (i 1).val < win0_12.index ⟨(i 0).val / 400, ht⟩ 1 * 512 + 512
    rw [e1]; omega

/-- Output 12's array after the launch. -/
theorem final12 (c : Dev nD) :
    (dat0 V c).arrAt 12 cfg0.N = linRe (V c main_v21 : Mat 10000 512) (V c main_v22 : Mat 10000 512) (V c main_v28 : Mat 512 512) (V c main_v30 : Mat 512 512) (V c main_v33 : Mat 1 512) :=
  (dat0 V c).arrAt_eq_of_cover 12 (linRe (V c main_v21 : Mat 10000 512) (V c main_v22 : Mat 10000 512) (V c main_v28 : Mat 512 512) (V c main_v30 : Mat 512 512) (V c main_v33 : Mat 1 512)) (fun t _ => flushed12_eq V c t) cover12

/-! ## Output window 13 -/

/-- Reading an array through point t's block of output window 13 takes band t of it. -/
theorem blk13_read (G : Mat 10000 512) (t : Fin cfg0.N) :
    (((cfg0.win 13).blk t).view.read (Elt Ideal) G : Mat 400 512) = band 400 (400 * t.val) (hband t) G := by
  obtain ⟨-, -, -, -, -, ⟨e0, e1⟩⟩ := idx_rows t
  funext j
  rw [View.read_apply]
  show G _ = G _
  congr 1
  funext a
  apply Fin.ext
  match a with
  | ⟨0, _⟩ => show win0_13.index t 0 * 400 + 1 * (j 0).val = 400 * t.val + (j 0).val; rw [e0]; omega
  | ⟨1, _⟩ => show win0_13.index t 1 * 512 + 1 * (j 1).val = (j 1).val; rw [e1]; omega

/-- What point t writes back into output 13 is band t of the whole-matrix function of the arrays the launch found. -/
theorem flushed13_eq (c : Dev nD) (t : Fin cfg0.N) :
    (dat0 V c).flushed 13 t = ((cfg0.win 13).blk t).view.read (Elt Ideal) (linIm (V c main_v21 : Mat 10000 512) (V c main_v22 : Mat 10000 512) (V c main_v28 : Mat 512 512) (V c main_v30 : Mat 512 512) (V c main_v34 : Mat 1 512)) := by
  show (cfg0.win 13).cut (grid0.coords t) ((dat0 V c).after 13 t) = _
  rw [after0_13]
  unfold out0_13
  rw [View.canon_unit_zero hz]
  simp only [View.ld_unit_zero (S := S400x512) hz, View.ld_unit_zero (S := S512x512) hz, View.ld_unit_zero (S := S1x512) hz]
  refine (pay13 (iblk0 V c 0 t) (iblk0 V c 1 t) (iblk0 V c 4 t) (iblk0 V c 5 t) (iblk0 V c 9 t)).trans ?_
  rw [iblk_0 V c t, iblk_1 V c t, iblk_4 V c t, iblk_5 V c t, iblk_9 V c t, blk13_read]
  rfl

/-- An index of output 13's array is in point t's block iff each coordinate is in the block's range on its axis. -/
theorem mem_blk13 (t : Fin cfg0.N) (i : S10000x512.Idx) :
    i ∈ ((cfg0.win 13).blk t).view.set ↔ ∀ a : Fin 2, win0_13.index t a * S400x512.size a ≤ (i a).val ∧ (i a).val < win0_13.index t a * S400x512.size a + S400x512.size a := by
  show i ∈ ((View.whole main_v35_3).slice (win0_13.rect t)).set ↔ _
  rw [View.set_slice_whole, Rect.mem_set_unit]
  exact Iff.rfl

/-- The 25 bands cover output 13's array: row r is in the block of point r / 400. -/
theorem cover13 (i : S10000x512.Idx) :
    ∃ t : Fin cfg0.N, (cfg0.win 13).flush t = true ∧ i ∈ ((cfg0.win 13).blk t).view.set := by
  have hi0 : (i 0).val < 10000 := (i 0).isLt
  have hi1 : (i 1).val < 512 := (i 1).isLt
  have hN : cfg0.N = 25 := N_0
  have ht : (i 0).val / 400 < cfg0.N := by omega
  obtain ⟨-, -, -, -, -, ⟨e0, e1⟩⟩ := idx_rows ⟨(i 0).val / 400, ht⟩
  refine ⟨⟨(i 0).val / 400, ht⟩, flush0_13 _, ?_⟩
  rw [mem_blk13]
  intro a
  match a with
  | ⟨0, _⟩ =>
    show win0_13.index ⟨(i 0).val / 400, ht⟩ 0 * 400 ≤ (i 0).val ∧ (i 0).val < win0_13.index ⟨(i 0).val / 400, ht⟩ 0 * 400 + 400
    rw [e0]; dsimp only; omega
  | ⟨1, _⟩ =>
    show win0_13.index ⟨(i 0).val / 400, ht⟩ 1 * 512 ≤ (i 1).val ∧ (i 1).val < win0_13.index ⟨(i 0).val / 400, ht⟩ 1 * 512 + 512
    rw [e1]; omega

/-- Output 13's array after the launch. -/
theorem final13 (c : Dev nD) :
    (dat0 V c).arrAt 13 cfg0.N = linIm (V c main_v21 : Mat 10000 512) (V c main_v22 : Mat 10000 512) (V c main_v28 : Mat 512 512) (V c main_v30 : Mat 512 512) (V c main_v34 : Mat 1 512) :=
  (dat0 V c).arrAt_eq_of_cover 13 (linIm (V c main_v21 : Mat 10000 512) (V c main_v22 : Mat 10000 512) (V c main_v28 : Mat 512 512) (V c main_v30 : Mat 512 512) (V c main_v34 : Mat 1 512)) (fun t _ => flushed13_eq V c t) cover13

end Cert.Linear

end
-- ==== Proof.LinearRef.lean ====
/-
  The reference's four linear stages as the same whole-matrix functions.

  Each stage is a host contraction of x_re and x_im with a transposed weight matrix, the two products subtracted (real
  part) or added (imaginary part), plus the bias vector broadcast to one row and then down the rows. A host contraction
  of the second axis with the first is the matrix product, the transposed weight is the matrix with its two coordinates
  exchanged, and the twice-broadcast vector added is the row addition of the vector as a one-row matrix. So the four
  stages are the real and imaginary parts of the complex linear map, for the l weights and for the g weights.
-/
import proofs.«126010_j61804579389716_1_alg».proof.Proof.Linear
import proofs.«126010_j61804579389716_1_alg».proof.Proof.Gen.ReferenceIdeal.Read

noncomputable section

namespace Cert.Linear

open Idealize.ShloMosaic Idealize.ShloMosaic.ValueIdx
open Cert.Layers Cert.LibMatProd
open Cert.ReferenceIdeal Cert.ReferenceIdeal.Gen

/-- A matrix with its two coordinates exchanged: entry (p, q) of the result is entry (q, p) of the matrix. -/
def tr {M N : ℕ} (w : Mat M N) : Mat N M := fun i => w (ix2 (i 1) (i 0))

/-- The host transposition of a 512 × 512 matrix is the matrix with its coordinates exchanged. -/
theorem transpose_eq_tr (w : FVec Ideal S512x512 .f32) :
    transpose S512x512 [1, 0] w transposes_S512x512_S512x512_1_0 = tr (w : Mat 512 512) := by
  funext i
  exact transpose_apply [1, 0] w transposes_S512x512_S512x512_1_0 i (ix2 (i 1) (i 0)) (fun b => match b with
    | ⟨0, _⟩ => rfl
    | ⟨1, _⟩ => rfl)

/-- Two host contractions with transposed weights subtracted, plus the twice-broadcast bias: the real part. -/
theorem host_re (x0 x1 : FVec Ideal S10000x512 .f32) (wa wb : FVec Ideal S512x512 .f32) (b : FVec Ideal S512 .f32) :
    addf (subf
        (Host.dotGeneral (F := Ideal) dot_S10000x512_S512x512_S10000x512_1_0_0_1_n_n none x0 (transpose S512x512 [1, 0] wa transposes_S512x512_S512x512_1_0))
        (Host.dotGeneral (F := Ideal) dot_S10000x512_S512x512_S10000x512_1_0_0_1_n_n none x1 (transpose S512x512 [1, 0] wb transposes_S512x512_S512x512_1_0)))
      (broadcastInDim S10000x512 ![0, 1] bcast_S1x512_S10000x512_0_1 (broadcastInDim S1x512 ![1] bcast_S512_S1x512_1 b))
      = linRe (x0 : Mat 10000 512) x1 (tr (wa : Mat 512 512)) (tr (wb : Mat 512 512)) (rowOf b) := by
  rw [transpose_eq_tr, transpose_eq_tr,
    host_prod dot_S10000x512_S512x512_S10000x512_1_0_0_1_n_n rfl rfl rfl rfl rfl rfl x0 (tr (wa : Mat 512 512)), host_prod dot_S10000x512_S512x512_S10000x512_1_0_0_1_n_n rfl rfl rfl rfl rfl rfl x1 (tr (wb : Mat 512 512))]
  exact host_addRow (fun i => matProd (x0 : Mat 10000 512) (tr (wa : Mat 512 512)) i - matProd (x1 : Mat 10000 512) (tr (wb : Mat 512 512)) i) b bcast_S512_S1x512_1 bcast_S1x512_S10000x512_0_1

/-- Two host contractions with transposed weights added, plus the twice-broadcast bias: the imaginary part. -/
theorem host_im (x0 x1 : FVec Ideal S10000x512 .f32) (wa wb : FVec Ideal S512x512 .f32) (b : FVec Ideal S512 .f32) :
    addf (addf
        (Host.dotGeneral (F := Ideal) dot_S10000x512_S512x512_S10000x512_1_0_0_1_n_n none x0 (transpose S512x512 [1, 0] wb transposes_S512x512_S512x512_1_0))
        (Host.dotGeneral (F := Ideal) dot_S10000x512_S512x512_S10000x512_1_0_0_1_n_n none x1 (transpose S512x512 [1, 0] wa transposes_S512x512_S512x512_1_0)))
      (broadcastInDim S10000x512 ![0, 1] bcast_S1x512_S10000x512_0_1 (broadcastInDim S1x512 ![1] bcast_S512_S1x512_1 b))
      = linIm (x0 : Mat 10000 512) x1 (tr (wa : Mat 512 512)) (tr (wb : Mat 512 512)) (rowOf b) := by
  rw [transpose_eq_tr, transpose_eq_tr,
    host_prod dot_S10000x512_S512x512_S10000x512_1_0_0_1_n_n rfl rfl rfl rfl rfl rfl x0 (tr (wb : Mat 512 512)), host_prod dot_S10000x512_S512x512_S10000x512_1_0_0_1_n_n rfl rfl rfl rfl rfl rfl x1 (tr (wa : Mat 512 512))]
  exact host_addRow (fun i => matProd (x0 : Mat 10000 512) (tr (wb : Mat 512 512)) i + matProd (x1 : Mat 10000 512) (tr (wa : Mat 512 512)) i) b bcast_S512_S1x512_1 bcast_S1x512_S10000x512_0_1

/-- The l branch's real part: stage 28 of the reference. -/
theorem ref_v28 (x0 x1 : (⟨S10000x512, .f32⟩ : BufTy).Contents (Elt Ideal)) (x5 x6 : (⟨S512x512, .f32⟩ : BufTy).Contents (Elt Ideal)) (x7 : (⟨S512, .f32⟩ : BufTy).Contents (Elt Ideal)) :
    Read.val_main_v28 (F := Ideal) x0 x1 x5 x6 x7 = linRe (x0 : Mat 10000 512) x1 (tr (x5 : Mat 512 512)) (tr (x6 : Mat 512 512)) (rowOf x7) :=
  host_re x0 x1 x5 x6 x7

/-- The l branch's imaginary part: stage 36 of the reference. -/
theorem ref_v36 (x0 x1 : (⟨S10000x512, .f32⟩ : BufTy).Contents (Elt Ideal)) (x5 x6 : (⟨S512x512, .f32⟩ : BufTy).Contents (Elt Ideal)) (x8 : (⟨S512, .f32⟩ : BufTy).Contents (Elt Ideal)) :
    Read.val_main_v36 (F := Ideal) x0 x1 x5 x6 x8 = linIm (x0 : Mat 10000 512) x1 (tr (x5 : Mat 512 512)) (tr (x6 : Mat 512 512)) (rowOf x8) :=
  host_im x0 x1 x5 x6 x8

/-- The g branch's real part: stage 73 of the reference. -/
theorem ref_v73 (x0 x1 : (⟨S10000x512, .f32⟩ : BufTy).Contents (Elt Ideal)) (x9 x10 : (⟨S512x512, .f32⟩ : BufTy).Contents (Elt Ideal)) (x11 : (⟨S512, .f32⟩ : BufTy).Contents (Elt Ideal)) :
    Read.val_main_v73 (F := Ideal) x0 x1 x9 x10 x11 = linRe (x0 : Mat 10000 512) x1 (tr (x9 : Mat 512 512)) (tr (x10 : Mat 512 512)) (rowOf x11) :=
  host_re x0 x1 x9 x10 x11

/-- The g branch's imaginary part: stage 81 of the reference. -/
theorem ref_v81 (x0 x1 : (⟨S10000x512, .f32⟩ : BufTy).Contents (Elt Ideal)) (x9 x10 : (⟨S512x512, .f32⟩ : BufTy).Contents (Elt Ideal)) (x12 : (⟨S512, .f32⟩ : BufTy).Contents (Elt Ideal)) :
    Read.val_main_v81 (F := Ideal) x0 x1 x9 x10 x12 = linIm (x0 : Mat 10000 512) x1 (tr (x9 : Mat 512 512)) (tr (x10 : Mat 512 512)) (rowOf x12) :=
  host_im x0 x1 x9 x10 x12

end Cert.Linear

end
-- ==== Proof.Combine.lean ====
/-
  The second launch as whole-array functions. Each of its two outputs is, entry by entry, the sum of two
  branches; a branch takes one aggregated array plus the residual input, y = a + x, and returns y times the
  logistic function of y. Every grid point handles a band of 400 rows of the [10000, 512] arrays, and the 25
  bands tile the arrays, so each output array ends holding that function of the whole input arrays.
-/
import proofs.«126010_j61804579389716_1_alg».proof.Proof.Gen.KernelIdeal.Frame
import Idealize.ShloMosaic.Lib.Pipeline.Value
import Idealize.ShloMosaic.PureOps.Ideal.Laws

noncomputable section

namespace Cert.Combine

open Idealize.ShloMosaic

/-- One branch: y times the logistic function of y, at y = a + x. The sum of the two branches, entry by entry. -/
def comb {s : Shape} (al ag x : FVec Ideal s .f32) : FVec Ideal s .f32 :=
  fun i => FloatOps.addf
    (FloatOps.mulf (FloatOps.addf (al i) (x i)) (FloatOps.logistic (FloatOps.addf (al i) (x i))))
    (FloatOps.mulf (FloatOps.addf (ag i) (x i)) (FloatOps.logistic (FloatOps.addf (ag i) (x i))))

/-- At an entry, in the arithmetic of the extended reals. -/
theorem comb_apply {s : Shape} (al ag x : FVec Ideal s .f32) (i : s.Idx) :
    comb al ag x i = (al i + x i) * Ideal.logistic (al i + x i) + (ag i + x i) * Ideal.logistic (ag i + x i) := rfl

/-- The same function in whole-vector operations. -/
theorem comb_eq_vec {s : Shape} (al ag x : FVec Ideal s .f32) :
    comb al ag x = addf (mulf (addf al x) (logistic (addf al x))) (mulf (addf ag x) (logistic (addf ag x))) := rfl

/-- Equal operands at two entries give equal values of `comb` there. -/
theorem comb_at {s s' : Shape} (al ag x : FVec Ideal s .f32) (al' ag' x' : FVec Ideal s' .f32) (i : s.Idx) (i' : s'.Idx)
    (h1 : al i = al' i') (h2 : ag i = ag' i') (h3 : x i = x' i') : comb al ag x i = comb al' ag' x' i' := by
  rw [comb_apply, comb_apply, h1, h2, h3]

section Kernel

open Cert.KernelIdeal Cert.KernelIdeal.Gen Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's first payload is `comb` of its three loaded blocks (the re-lays are identities). -/
theorem pay1_eq (x0 x2 x4 : Vec Ideal S400x512 .f32) : k1_pay1 x0 x2 x4 = comb x0 x2 x4 := by
  unfold k1_pay1
  simp only [shapeCast_self]
  rfl

/-- The body's second payload likewise. -/
theorem pay2_eq (x1 x3 x5 : Vec Ideal S400x512 .f32) : k1_pay2 x1 x3 x5 = comb x1 x3 x5 := by
  unfold k1_pay2
  simp only [shapeCast_self]
  rfl

/-- Every window of the launch sits, at grid point t, on band t of its array: block index (t, 0). -/
theorem band_idx : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0) :=
  (by decide +kernel : ∀ t : Fin grid1.N, _)

/-- What grid point t writes back to the first output is band t of `comb` of the three input arrays. -/
theorem flushed6_eq (c : Dev nD) (t : Fin cfg1.N) :
    (dat1 (F := Ideal) V c).flushed 6 t
      = ((cfg1.win 6).blk t).view.read (Elt Ideal) (comb (V c main_v49) (V c main_v76) (V c main_arg0)) := by
  show (cfg1.win 6).cut (grid1.coords t) ((dat1 V c).after 6 t) = _
  rw [after1_6]
  unfold out1_6
  rw [View.canon_unit_zero hz]
  simp only [View.ld_unit_zero (S := S400x512) hz]
  rw [pay1_eq]
  obtain ⟨⟨a0, a1⟩, -, ⟨c0, c1⟩, -, ⟨e0, e1⟩, -, ⟨g0, g1⟩, -⟩ := band_idx t
  funext j
  have h0 : ((cfg1.win 0).blk t).view.emb j = ((cfg1.win 6).blk t).view.emb j := by
    funext a; apply Fin.ext
    match a with
    | ⟨0, _⟩ => show win1_0.index t (0 : Fin 2) * 400 + 1 * (j 0).val = win1_6.index t (0 : Fin 2) * 400 + 1 * (j 0).val; omega
    | ⟨1, _⟩ => show win1_0.index t (1 : Fin 2) * 512 + 1 * (j 1).val = win1_6.index t (1 : Fin 2) * 512 + 1 * (j 1).val; omega
  have h2 : ((cfg1.win 2).blk t).view.emb j = ((cfg1.win 6).blk t).view.emb j := by
    funext a; apply Fin.ext
    match a with
    | ⟨0, _⟩ => show win1_2.index t (0 : Fin 2) * 400 + 1 * (j 0).val = win1_6.index t (0 : Fin 2) * 400 + 1 * (j 0).val; omega
    | ⟨1, _⟩ => show win1_2.index t (1 : Fin 2) * 512 + 1 * (j 1).val = win1_6.index t (1 : Fin 2) * 512 + 1 * (j 1).val; omega
  have h4 : ((cfg1.win 4).blk t).view.emb j = ((cfg1.win 6).blk t).view.emb j := by
    funext a; apply Fin.ext
    match a with
    | ⟨0, _⟩ => show win1_4.index t (0 : Fin 2) * 400 + 1 * (j 0).val = win1_6.index t (0 : Fin 2) * 400 + 1 * (j 0).val; omega
    | ⟨1, _⟩ => show win1_4.index t (1 : Fin 2) * 512 + 1 * (j 1).val = win1_6.index t (1 : Fin 2) * 512 + 1 * (j 1).val; omega
  refine comb_at (iblk1 V c 0 t) (iblk1 V c 2 t) (iblk1 V c 4 t) (V c main_v49) (V c main_v76) (V c main_arg0) j
    (((cfg1.win 6).blk t).view.emb j) ?_ ?_ ?_
  · show V c main_v49 (((cfg1.win 0).blk t).view.emb j) = _
    rw [h0]
  · show V c main_v76 (((cfg1.win 2).blk t).view.emb j) = _
    rw [h2]
  · show V c main_arg0 (((cfg1.win 4).blk t).view.emb j) = _
    rw [h4]

/-- An index of the first output array lies in grid point t's block iff each coordinate lies in the block's range. -/
theorem mem_blk6 (t : Fin cfg1.N) (i : S10000x512.Idx) :
    i ∈ ((cfg1.win 6).blk t).view.set ↔ ∀ a : Fin 2, win1_6.index t a * S400x512.size a ≤ (i a).val
      ∧ (i a).val < win1_6.index t a * S400x512.size a + S400x512.size a := by
  show i ∈ ((View.whole main_v90_0).slice (win1_6.rect t)).set ↔ _
  rw [View.set_slice_whole, Rect.mem_set_unit]
  exact Iff.rfl

/-- Every index of the first output array is in some grid point's block: row r is in band r / 400. -/
theorem covered6 (i : S10000x512.Idx) :
    ∃ t : Fin cfg1.N, (cfg1.win 6).flush t = true ∧ i ∈ ((cfg1.win 6).blk t).view.set := by
  have hi0 : (i 0).val < 10000 := (i 0).isLt
  have hi1 : (i 1).val < 512 := (i 1).isLt
  have hN : grid1.N = 25 := N_1
  have ht : (i 0).val / 400 < cfg1.N := lt_of_lt_of_eq (by omega) hN.symm
  obtain ⟨-, -, -, -, -, -, ⟨g0, g1⟩, -⟩ := band_idx ⟨(i 0).val / 400, ht⟩
  refine ⟨⟨(i 0).val / 400, ht⟩, flush1_6 _, ?_⟩
  rw [mem_blk6]
  intro a
  match a with
  | ⟨0, _⟩ =>
    show win1_6.index ⟨(i 0).val / 400, ht⟩ (0 : Fin 2) * 400 ≤ (i 0).val
      ∧ (i 0).val < win1_6.index ⟨(i 0).val / 400, ht⟩ (0 : Fin 2) * 400 + 400
    rw [g0]
    show (i 0).val / 400 * 400 ≤ (i 0).val ∧ (i 0).val < (i 0).val / 400 * 400 + 400
    omega
  | ⟨1, _⟩ =>
    show win1_6.index ⟨(i 0).val / 400, ht⟩ (1 : Fin 2) * 512 ≤ (i 1).val
      ∧ (i 1).val < win1_6.index ⟨(i 0).val / 400, ht⟩ (1 : Fin 2) * 512 + 512
    rw [g1]
    omega

/-- THE FIRST OUTPUT ARRAY after the launch: `comb` of the arrays the launch finds in its windows 0, 2 and 4. -/
theorem arr6_eq (c : Dev nD) :
    (dat1 (F := Ideal) V c).arrAt 6 cfg1.N = comb (V c main_v49) (V c main_v76) (V c main_arg0) :=
  (dat1 (F := Ideal) V c).arrAt_eq_of_cover 6 (comb (V c main_v49) (V c main_v76) (V c main_arg0))
    (fun t _ => flushed6_eq V c t) covered6

/-- What grid point t writes back to the second output is band t of `comb` of the three input arrays. -/
theorem flushed7_eq (c : Dev nD) (t : Fin cfg1.N) :
    (dat1 (F := Ideal) V c).flushed 7 t
      = ((cfg1.win 7).blk t).view.read (Elt Ideal) (comb (V c main_v62) (V c main_v89) (V c main_arg1)) := by
  show (cfg1.win 7).cut (grid1.coords t) ((dat1 V c).after 7 t) = _
  rw [after1_7]
  unfold out1_7
  rw [View.canon_unit_zero hz]
  simp only [View.ld_unit_zero (S := S400x512) hz]
  rw [pay2_eq]
  obtain ⟨-, ⟨b0, b1⟩, -, ⟨d0, d1⟩, -, ⟨f0, f1⟩, -, ⟨k0, k1⟩⟩ := band_idx t
  funext j
  have h1 : ((cfg1.win 1).blk t).view.emb j = ((cfg1.win 7).blk t).view.emb j := by
    funext a; apply Fin.ext
    match a with
    | ⟨0, _⟩ => show win1_1.index t (0 : Fin 2) * 400 + 1 * (j 0).val = win1_7.index t (0 : Fin 2) * 400 + 1 * (j 0).val; omega
    | ⟨1, _⟩ => show win1_1.index t (1 : Fin 2) * 512 + 1 * (j 1).val = win1_7.index t (1 : Fin 2) * 512 + 1 * (j 1).val; omega
  have h3 : ((cfg1.win 3).blk t).view.emb j = ((cfg1.win 7).blk t).view.emb j := by
    funext a; apply Fin.ext
    match a with
    | ⟨0, _⟩ => show win1_3.index t (0 : Fin 2) * 400 + 1 * (j 0).val = win1_7.index t (0 : Fin 2) * 400 + 1 * (j 0).val; omega
    | ⟨1, _⟩ => show win1_3.index t (1 : Fin 2) * 512 + 1 * (j 1).val = win1_7.index t (1 : Fin 2) * 512 + 1 * (j 1).val; omega
  have h5 : ((cfg1.win 5).blk t).view.emb j = ((cfg1.win 7).blk t).view.emb j := by
    funext a; apply Fin.ext
    match a with
    | ⟨0, _⟩ => show win1_5.index t (0 : Fin 2) * 400 + 1 * (j 0).val = win1_7.index t (0 : Fin 2) * 400 + 1 * (j 0).val; omega
    | ⟨1, _⟩ => show win1_5.index t (1 : Fin 2) * 512 + 1 * (j 1).val = win1_7.index t (1 : Fin 2) * 512 + 1 * (j 1).val; omega
  refine comb_at (iblk1 V c 1 t) (iblk1 V c 3 t) (iblk1 V c 5 t) (V c main_v62) (V c main_v89) (V c main_arg1) j
    (((cfg1.win 7).blk t).view.emb j) ?_ ?_ ?_
  · show V c main_v62 (((cfg1.win 1).blk t).view.emb j) = _
    rw [h1]
  · show V c main_v89 (((cfg1.win 3).blk t).view.emb j) = _
    rw [h3]
  · show V c main_arg1 (((cfg1.win 5).blk t).view.emb j) = _
    rw [h5]

/-- An index of the second output array lies in grid point t's block iff each coordinate lies in the block's range. -/
theorem mem_blk7 (t : Fin cfg1.N) (i : S10000x512.Idx) :
    i ∈ ((cfg1.win 7).blk t).view.set ↔ ∀ a : Fin 2, win1_7.index t a * S400x512.size a ≤ (i a).val
      ∧ (i a).val < win1_7.index t a * S400x512.size a + S400x512.size a := by
  show i ∈ ((View.whole main_v90_1).slice (win1_7.rect t)).set ↔ _
  rw [View.set_slice_whole, Rect.mem_set_unit]
  exact Iff.rfl

/-- Every index of the second output array is in some grid point's block: row r is in band r / 400. -/
theorem covered7 (i : S10000x512.Idx) :
    ∃ t : Fin cfg1.N, (cfg1.win 7).flush t = true ∧ i ∈ ((cfg1.win 7).blk t).view.set := by
  have hi0 : (i 0).val < 10000 := (i 0).isLt
  have hi1 : (i 1).val < 512 := (i 1).isLt
  have hN : grid1.N = 25 := N_1
  have ht : (i 0).val / 400 < cfg1.N := lt_of_lt_of_eq (by omega) hN.symm
  obtain ⟨-, -, -, -, -, -, -, ⟨g0, g1⟩⟩ := band_idx ⟨(i 0).val / 400, ht⟩
  refine ⟨⟨(i 0).val / 400, ht⟩, flush1_7 _, ?_⟩
  rw [mem_blk7]
  intro a
  match a with
  | ⟨0, _⟩ =>
    show win1_7.index ⟨(i 0).val / 400, ht⟩ (0 : Fin 2) * 400 ≤ (i 0).val
      ∧ (i 0).val < win1_7.index ⟨(i 0).val / 400, ht⟩ (0 : Fin 2) * 400 + 400
    rw [g0]
    show (i 0).val / 400 * 400 ≤ (i 0).val ∧ (i 0).val < (i 0).val / 400 * 400 + 400
    omega
  | ⟨1, _⟩ =>
    show win1_7.index ⟨(i 0).val / 400, ht⟩ (1 : Fin 2) * 512 ≤ (i 1).val
      ∧ (i 1).val < win1_7.index ⟨(i 0).val / 400, ht⟩ (1 : Fin 2) * 512 + 512
    rw [g1]
    omega

/-- THE SECOND OUTPUT ARRAY after the launch: `comb` of the arrays the launch finds in its windows 1, 3 and 5. -/
theorem arr7_eq (c : Dev nD) :
    (dat1 (F := Ideal) V c).arrAt 7 cfg1.N = comb (V c main_v62) (V c main_v89) (V c main_arg1) :=
  (dat1 (F := Ideal) V c).arrAt_eq_of_cover 7 (comb (V c main_v62) (V c main_v89) (V c main_arg1))
    (fun t _ => flushed7_eq V c t) covered7

end Kernel

end Cert.Combine

end
-- ==== Proof.CombineRef.lean ====
/-
  The reference's two final pointwise stages as the function `comb` of Combine.lean. The reference adds the residual
  input to an aggregated array, y = a + x, multiplies y by one over (one plus the exponential of minus y) — the
  logistic function of y, spelt with broadcast constants one — and adds the two branches.
-/
import proofs.«126010_j61804579389716_1_alg».proof.Proof.Gen.ReferenceIdeal.Read
import proofs.«126010_j61804579389716_1_alg».proof.Proof.Combine
import proofs.«126010_j61804579389716_1_alg».proof.Proof.LibPlainDot

noncomputable section

namespace Cert.Combine

open Idealize.ShloMosaic

/-- The reference's spelling of the sum of the two branches — each branch y times (one over (one plus the exponential
    of minus y)), the ones broadcast constants — is `comb`, for any arrays and any shape. -/
theorem host_comb {s : Shape} (a g x : FVec Ideal s .f32) (h : (⟨0, ![]⟩ : Shape).BroadcastsInDim s ![]) :
    addf
        (mulf (addf a x) (Host.divf (F := Ideal) (broadcastInDim s ![] h (constant (F := Ideal) ⟨0, ![]⟩ .f32 0x3F800000#32))
          (addf (broadcastInDim s ![] h (constant (F := Ideal) ⟨0, ![]⟩ .f32 0x3F800000#32))
            (Host.exp (F := Ideal) (Host.negf (F := Ideal) (addf a x))))))
        (mulf (addf g x) (Host.divf (F := Ideal) (broadcastInDim s ![] h (constant (F := Ideal) ⟨0, ![]⟩ .f32 0x3F800000#32))
          (addf (broadcastInDim s ![] h (constant (F := Ideal) ⟨0, ![]⟩ .f32 0x3F800000#32))
            (Host.exp (F := Ideal) (Host.negf (F := Ideal) (addf g x))))))
      = comb a g x := by
  rw [LibPlainDot.host_sigmoid_eq, LibPlainDot.host_sigmoid_eq, comb_eq_vec]

section Reference

open Cert.ReferenceIdeal Cert.ReferenceIdeal.Gen

/-- The reference's stage 111 — the sum of its stages 64 and 109, each a branch of its stage 62 = stage 49 + x_re and
    stage 107 = stage 94 + x_re — is `comb` of stages 49 and 94 and the real input. -/
theorem ref_v111 (x0 x1 : (⟨S10000x512, .f32⟩ : BufTy).Contents (Elt Ideal)) (x2 : (⟨S2x160000, .i32⟩ : BufTy).Contents (Elt Ideal)) (x3 : (⟨S160000, .f32⟩ : BufTy).Contents (Elt Ideal)) (x4 : (⟨S10000, .i32⟩ : BufTy).Contents (Elt Ideal)) (x5 x6 : (⟨S512x512, .f32⟩ : BufTy).Contents (Elt Ideal)) (x7 : (⟨S512, .f32⟩ : BufTy).Contents (Elt Ideal)) (x9 x10 : (⟨S512x512, .f32⟩ : BufTy).Contents (Elt Ideal)) (x11 : (⟨S512, .f32⟩ : BufTy).Contents (Elt Ideal)) :
    Read.val_main_v111 (F := Ideal) x0 x1 x2 x3 x4 x5 x6 x7 x9 x10 x11
      = comb (Read.val_main_v49 (F := Ideal) x0 x1 x2 x3 x4 x5 x6 x7) (Read.val_main_v94 (F := Ideal) x0 x1 x2 x3 x4 x9 x10 x11) x0 := by
  unfold Read.val_main_v111 Read.val_main_v64 Read.val_main_v109
    Read.val_main_call2_v5 Read.val_main_call2_v4 Read.val_main_call2_cst_0 Read.val_main_call2_v3 Read.val_main_call2_v2
    Read.val_main_call2_cst Read.val_main_call2_v1 Read.val_main_call2_v0 Read.val_main_v62
    Read.val_main_call4_v5 Read.val_main_call4_v4 Read.val_main_call4_cst_0 Read.val_main_call4_v3 Read.val_main_call4_v2
    Read.val_main_call4_cst Read.val_main_call4_v1 Read.val_main_call4_v0 Read.val_main_v107
  generalize Read.val_main_v49 (F := Ideal) x0 x1 x2 x3 x4 x5 x6 x7 = a
  generalize Read.val_main_v94 (F := Ideal) x0 x1 x2 x3 x4 x9 x10 x11 = g
  exact host_comb a g x0 bcast_S_S10000x512

/-- The reference's stage 112 likewise: `comb` of stages 61 and 106 and the imaginary input. -/
theorem ref_v112 (x0 x1 : (⟨S10000x512, .f32⟩ : BufTy).Contents (Elt Ideal)) (x2 : (⟨S2x160000, .i32⟩ : BufTy).Contents (Elt Ideal)) (x3 : (⟨S160000, .f32⟩ : BufTy).Contents (Elt Ideal)) (x4 : (⟨S10000, .i32⟩ : BufTy).Contents (Elt Ideal)) (x5 x6 : (⟨S512x512, .f32⟩ : BufTy).Contents (Elt Ideal)) (x8 : (⟨S512, .f32⟩ : BufTy).Contents (Elt Ideal)) (x9 x10 : (⟨S512x512, .f32⟩ : BufTy).Contents (Elt Ideal)) (x12 : (⟨S512, .f32⟩ : BufTy).Contents (Elt Ideal)) :
    Read.val_main_v112 (F := Ideal) x0 x1 x2 x3 x4 x5 x6 x8 x9 x10 x12
      = comb (Read.val_main_v61 (F := Ideal) x0 x1 x2 x3 x4 x5 x6 x8) (Read.val_main_v106 (F := Ideal) x0 x1 x2 x3 x4 x9 x10 x12) x1 := by
  unfold Read.val_main_v112 Read.val_main_v65 Read.val_main_v110
    Read.val_main_call3_v5 Read.val_main_call3_v4 Read.val_main_call3_cst_0 Read.val_main_call3_v3 Read.val_main_call3_v2
    Read.val_main_call3_cst Read.val_main_call3_v1 Read.val_main_call3_v0 Read.val_main_v63
    Read.val_main_call5_v5 Read.val_main_call5_v4 Read.val_main_call5_cst_0 Read.val_main_call5_v3 Read.val_main_call5_v2
    Read.val_main_call5_cst Read.val_main_call5_v1 Read.val_main_call5_v0 Read.val_main_v108
  generalize Read.val_main_v61 (F := Ideal) x0 x1 x2 x3 x4 x5 x6 x8 = a
  generalize Read.val_main_v106 (F := Ideal) x0 x1 x2 x3 x4 x9 x10 x12 = g
  exact host_comb a g x1 bcast_S_S10000x512

end Reference

end Cert.Combine

end
-- ==== Proof.StackRef.lean ====
/-
  The reference's result as a stack: its last three stages give each of the two final pointwise stages a trailing
  axis of size one and join the two along that axis, so the result's last axis indexes (real part, imaginary part).
-/
import proofs.«126010_j61804579389716_1_alg».proof.Proof.Gen.ReferenceIdeal.Read

noncomputable section

namespace Cert.Stack

open Idealize.ShloMosaic Cert.ReferenceIdeal Cert.ReferenceIdeal.Gen

/-- The reference's last three stages: its result is the stack, along a new last axis of size two, of its stages
    111 and 112 (each given a trailing axis of size one, then joined along it). -/
theorem ref_v115 (x0 x1 : (⟨S10000x512, .f32⟩ : BufTy).Contents (Elt Ideal)) (x2 : (⟨S2x160000, .i32⟩ : BufTy).Contents (Elt Ideal)) (x3 : (⟨S160000, .f32⟩ : BufTy).Contents (Elt Ideal)) (x4 : (⟨S10000, .i32⟩ : BufTy).Contents (Elt Ideal)) (x5 x6 : (⟨S512x512, .f32⟩ : BufTy).Contents (Elt Ideal)) (x7 x8 : (⟨S512, .f32⟩ : BufTy).Contents (Elt Ideal)) (x9 x10 : (⟨S512x512, .f32⟩ : BufTy).Contents (Elt Ideal)) (x11 x12 : (⟨S512, .f32⟩ : BufTy).Contents (Elt Ideal)) :
    Read.val_main_v115 (F := Ideal) x0 x1 x2 x3 x4 x5 x6 x7 x8 x9 x10 x11 x12
      = concatenate S10000x512x2 2
          [⟨S10000x512x1, broadcastInDim S10000x512x1 ![0, 1] bcast_S10000x512_S10000x512x1_0_1
              (Read.val_main_v111 (F := Ideal) x0 x1 x2 x3 x4 x5 x6 x7 x9 x10 x11)⟩,
           ⟨S10000x512x1, broadcastInDim S10000x512x1 ![0, 1] bcast_S10000x512_S10000x512x1_0_1
              (Read.val_main_v112 (F := Ideal) x0 x1 x2 x3 x4 x5 x6 x8 x9 x10 x12)⟩]
          concatenates_S10000x512x1_S10000x512x1_S10000x512x2_d2 := by
  unfold Read.val_main_v115 Read.val_main_v113 Read.val_main_v114
  rfl

end Cert.Stack

end
-- ==== Proof.KValue.lean ====
/-
  The idealized kernel's result is the reference's result, as one function of the thirteen argument arrays.

  Reading the kernel's buffers back from the end: the result stacks the second launch's two arrays; each of those is,
  entry by entry, silu(a_local + x) + silu(a_global + x) of the second launch's operands; each operand a is the
  propagation over the edges of one array of the first launch; and each array of the first launch is a complex linear
  map's real or imaginary part, (x_re · W_re^T ∓ x_im · W_im^T) + b or (x_re · W_im^T + x_im · W_re^T) + b, of operands
  that are the arguments narrowed, transposed or re-laid as a row. The reference computes the same stages in the same
  order on the host, so the two results agree stage by stage, for every contents of the arguments.
-/
import proofs.«126010_j61804579389716_1_alg».proof.Proof.Reads
import proofs.«126010_j61804579389716_1_alg».proof.Proof.Linear
import proofs.«126010_j61804579389716_1_alg».proof.Proof.LinearRef
import proofs.«126010_j61804579389716_1_alg».proof.Proof.Combine
import proofs.«126010_j61804579389716_1_alg».proof.Proof.CombineRef
import proofs.«126010_j61804579389716_1_alg».proof.Proof.StackRef

set_option maxRecDepth 16384

noncomputable section

namespace Cert.KernelIdeal.KValue

open Idealize.ShloMosaic Idealize.ShloMosaic.TcCoe Idealize.SL.Sem
open Cert.KernelIdeal Cert.KernelIdeal.Gen
open Cert.ReferenceIdeal.Read

variable (m : (ℓ : Loc nD τ sig) → Buf (Elt Ideal) ℓ) (ρ : Dev nD → PrngReg) (c : Dev nD)

/-! ## The first launch's four arrays are the reference's four linear stages -/

open Cert.Layers in
/-- The local branch's real part. The operands are the node features (narrowed: unchanged on exact values), the local
    weights transposed, and the bias re-laid as a row. -/
theorem lin_local_re : (W6 m ρ c (Proc.devRef .tc main_v35_0) : Mat 10000 512) = val_main_v28 (F := Ideal) (m ((c : Thread nD τ).loc main_arg0)) (m ((c : Thread nD τ).loc main_arg1)) (m ((c : Thread nD τ).loc main_arg5)) (m ((c : Thread nD τ).loc main_arg6)) (m ((c : Thread nD τ).loc main_arg7)) := by
  refine (W6_arr m ρ c 10).trans ((Cert.Linear.final10 (V5 m ρ) c).trans ?_)
  rw [Cert.Linear.ref_v28]
  have h21 : (V5 m ρ c main_v21 : Mat 10000 512) = (m ((c : Thread nD τ).loc main_arg0)) := Cert.KernelIdeal.Reads.xre_eq m ρ c
  have h22 : (V5 m ρ c main_v22 : Mat 10000 512) = (m ((c : Thread nD τ).loc main_arg1)) := Cert.KernelIdeal.Reads.xim_eq m ρ c
  have hwa : (V5 m ρ c main_v24 : Mat 512 512) = Cert.Linear.tr (m ((c : Thread nD τ).loc main_arg5)) := (Cert.KernelIdeal.Reads.wlre_eq m ρ c).trans (Cert.Linear.transpose_eq_tr (m ((c : Thread nD τ).loc main_arg5)))
  have hwb : (V5 m ρ c main_v26 : Mat 512 512) = Cert.Linear.tr (m ((c : Thread nD τ).loc main_arg6)) := (Cert.KernelIdeal.Reads.wlim_eq m ρ c).trans (Cert.Linear.transpose_eq_tr (m ((c : Thread nD τ).loc main_arg6)))
  have hb : (V5 m ρ c main_v31 : Mat 1 512) = rowOf (m ((c : Thread nD τ).loc main_arg7)) := (Cert.KernelIdeal.Reads.blre_eq m ρ c).trans (reshape_row (m ((c : Thread nD τ).loc main_arg7)) _)
  rw [h21, h22, hwa, hwb, hb]

open Cert.Layers in
/-- The local branch's imaginary part. -/
theorem lin_local_im : (W6 m ρ c (Proc.devRef .tc main_v35_1) : Mat 10000 512) = val_main_v36 (F := Ideal) (m ((c : Thread nD τ).loc main_arg0)) (m ((c : Thread nD τ).loc main_arg1)) (m ((c : Thread nD τ).loc main_arg5)) (m ((c : Thread nD τ).loc main_arg6)) (m ((c : Thread nD τ).loc main_arg8)) := by
  refine (W6_arr m ρ c 11).trans ((Cert.Linear.final11 (V5 m ρ) c).trans ?_)
  rw [Cert.Linear.ref_v36]
  have h21 : (V5 m ρ c main_v21 : Mat 10000 512) = (m ((c : Thread nD τ).loc main_arg0)) := Cert.KernelIdeal.Reads.xre_eq m ρ c
  have h22 : (V5 m ρ c main_v22 : Mat 10000 512) = (m ((c : Thread nD τ).loc main_arg1)) := Cert.KernelIdeal.Reads.xim_eq m ρ c
  have hwa : (V5 m ρ c main_v24 : Mat 512 512) = Cert.Linear.tr (m ((c : Thread nD τ).loc main_arg5)) := (Cert.KernelIdeal.Reads.wlre_eq m ρ c).trans (Cert.Linear.transpose_eq_tr (m ((c : Thread nD τ).loc main_arg5)))
  have hwb : (V5 m ρ c main_v26 : Mat 512 512) = Cert.Linear.tr (m ((c : Thread nD τ).loc main_arg6)) := (Cert.KernelIdeal.Reads.wlim_eq m ρ c).trans (Cert.Linear.transpose_eq_tr (m ((c : Thread nD τ).loc main_arg6)))
  have hb : (V5 m ρ c main_v32 : Mat 1 512) = rowOf (m ((c : Thread nD τ).loc main_arg8)) := (Cert.KernelIdeal.Reads.blim_eq m ρ c).trans (reshape_row (m ((c : Thread nD τ).loc main_arg8)) _)
  rw [h21, h22, hwa, hwb, hb]

open Cert.Layers in
/-- The global branch's real part. -/
theorem lin_global_re : (W6 m ρ c (Proc.devRef .tc main_v35_2) : Mat 10000 512) = val_main_v73 (F := Ideal) (m ((c : Thread nD τ).loc main_arg0)) (m ((c : Thread nD τ).loc main_arg1)) (m ((c : Thread nD τ).loc main_arg9)) (m ((c : Thread nD τ).loc main_arg10)) (m ((c : Thread nD τ).loc main_arg11)) := by
  refine (W6_arr m ρ c 12).trans ((Cert.Linear.final12 (V5 m ρ) c).trans ?_)
  rw [Cert.Linear.ref_v73]
  have h21 : (V5 m ρ c main_v21 : Mat 10000 512) = (m ((c : Thread nD τ).loc main_arg0)) := Cert.KernelIdeal.Reads.xre_eq m ρ c
  have h22 : (V5 m ρ c main_v22 : Mat 10000 512) = (m ((c : Thread nD τ).loc main_arg1)) := Cert.KernelIdeal.Reads.xim_eq m ρ c
  have hwa : (V5 m ρ c main_v28 : Mat 512 512) = Cert.Linear.tr (m ((c : Thread nD τ).loc main_arg9)) := (Cert.KernelIdeal.Reads.wgre_eq m ρ c).trans (Cert.Linear.transpose_eq_tr (m ((c : Thread nD τ).loc main_arg9)))
  have hwb : (V5 m ρ c main_v30 : Mat 512 512) = Cert.Linear.tr (m ((c : Thread nD τ).loc main_arg10)) := (Cert.KernelIdeal.Reads.wgim_eq m ρ c).trans (Cert.Linear.transpose_eq_tr (m ((c : Thread nD τ).loc main_arg10)))
  have hb : (V5 m ρ c main_v33 : Mat 1 512) = rowOf (m ((c : Thread nD τ).loc main_arg11)) := (Cert.KernelIdeal.Reads.bgre_eq m ρ c).trans (reshape_row (m ((c : Thread nD τ).loc main_arg11)) _)
  rw [h21, h22, hwa, hwb, hb]

open Cert.Layers in
/-- The global branch's imaginary part. -/
theorem lin_global_im : (W6 m ρ c (Proc.devRef .tc main_v35_3) : Mat 10000 512) = val_main_v81 (F := Ideal) (m ((c : Thread nD τ).loc main_arg0)) (m ((c : Thread nD τ).loc main_arg1)) (m ((c : Thread nD τ).loc main_arg9)) (m ((c : Thread nD τ).loc main_arg10)) (m ((c : Thread nD τ).loc main_arg12)) := by
  refine (W6_arr m ρ c 13).trans ((Cert.Linear.final13 (V5 m ρ) c).trans ?_)
  rw [Cert.Linear.ref_v81]
  have h21 : (V5 m ρ c main_v21 : Mat 10000 512) = (m ((c : Thread nD τ).loc main_arg0)) := Cert.KernelIdeal.Reads.xre_eq m ρ c
  have h22 : (V5 m ρ c main_v22 : Mat 10000 512) = (m ((c : Thread nD τ).loc main_arg1)) := Cert.KernelIdeal.Reads.xim_eq m ρ c
  have hwa : (V5 m ρ c main_v28 : Mat 512 512) = Cert.Linear.tr (m ((c : Thread nD τ).loc main_arg9)) := (Cert.KernelIdeal.Reads.wgre_eq m ρ c).trans (Cert.Linear.transpose_eq_tr (m ((c : Thread nD τ).loc main_arg9)))
  have hwb : (V5 m ρ c main_v30 : Mat 512 512) = Cert.Linear.tr (m ((c : Thread nD τ).loc main_arg10)) := (Cert.KernelIdeal.Reads.wgim_eq m ρ c).trans (Cert.Linear.transpose_eq_tr (m ((c : Thread nD τ).loc main_arg10)))
  have hb : (V5 m ρ c main_v34 : Mat 1 512) = rowOf (m ((c : Thread nD τ).loc main_arg12)) := (Cert.KernelIdeal.Reads.bgim_eq m ρ c).trans (reshape_row (m ((c : Thread nD τ).loc main_arg12)) _)
  rw [h21, h22, hwa, hwb, hb]

/-! ## The second launch's operands are the reference's four aggregations -/

theorem agg_local_re : W7 m ρ c (Proc.devRef .tc main_v49) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Cert.KernelIdeal.Reads.local_re_eq, lin_local_re, Cert.KernelIdeal.Reads.src_mid, Cert.KernelIdeal.Reads.dst_mid, Cert.KernelIdeal.Reads.intra_mid]
  exact (Cert.Edges.ref_local_re (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm

theorem agg_local_im : W7 m ρ c (Proc.devRef .tc main_v62) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) := by
  rw [Cert.KernelIdeal.Reads.local_im_eq, lin_local_im, Cert.KernelIdeal.Reads.src_mid, Cert.KernelIdeal.Reads.dst_mid, Cert.KernelIdeal.Reads.intra_mid]
  exact (Cert.Edges.ref_local_im (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8))).symm

theorem agg_global_re : W7 m ρ c (Proc.devRef .tc main_v76) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) := by
  rw [Cert.KernelIdeal.Reads.global_re_eq, lin_global_re, Cert.KernelIdeal.Reads.src_mid, Cert.KernelIdeal.Reads.dst_mid, Cert.KernelIdeal.Reads.inter_mid]
  exact (Cert.Edges.ref_global_re (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11))).symm

theorem agg_global_im : W7 m ρ c (Proc.devRef .tc main_v89) = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg12)) := by
  rw [Cert.KernelIdeal.Reads.global_im_eq, lin_global_im, Cert.KernelIdeal.Reads.src_mid, Cert.KernelIdeal.Reads.dst_mid, Cert.KernelIdeal.Reads.inter_mid]
  exact (Cert.Edges.ref_global_im (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg12))).symm

/-! ## The second launch's two arrays are the reference's two sums of branches -/

theorem out_re : W8 m ρ c (Proc.devRef .tc main_v90_0) = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) := by
  refine (W8_arr m ρ c 6).trans ((Cert.Combine.arr6_eq (V7 m ρ) c).trans ?_)
  rw [Cert.Combine.ref_v111]
  have h1 : V7 m ρ c main_v49 = _ := agg_local_re m ρ c
  have h2 : V7 m ρ c main_v76 = _ := agg_global_re m ρ c
  have h3 : V7 m ρ c main_arg0 = _ := Cert.KernelIdeal.Reads.arg0_mid m ρ c
  rw [h1, h2, h3]

theorem out_im : W8 m ρ c (Proc.devRef .tc main_v90_1) = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg12)) := by
  refine (W8_arr m ρ c 7).trans ((Cert.Combine.arr7_eq (V7 m ρ) c).trans ?_)
  rw [Cert.Combine.ref_v112]
  have h1 : V7 m ρ c main_v62 = _ := agg_local_im m ρ c
  have h2 : V7 m ρ c main_v89 = _ := agg_global_im m ρ c
  have h3 : V7 m ρ c main_arg1 = _ := Cert.KernelIdeal.Reads.arg1_mid m ρ c
  rw [h1, h2, h3]

/-! ## The result -/

/-- The kernel's result buffer ends holding the reference's last stage of the kernel's own argument arrays. -/
theorem result_value : W9 m ρ c (Proc.devRef .tc main_v93) = val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [Cert.KernelIdeal.Reads.result_eq, out_re, out_im]
  exact (Cert.Stack.ref_v115 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))).symm

end Cert.KernelIdeal.KValue

end
-- ==== Proof.lean ====
/-
  Both programs compute one layer of a graph network over complex node features, with the edges split by community.

  From the real and imaginary parts x_re, x_im of the features, the edge list, the edge weights and the nodes' community
  numbers: an edge keeps its weight in the local branch when both ends lie in one community and in the global branch
  otherwise (the other branch sees weight zero). Each branch applies a complex linear map, h = x · W^T + b with
  h_re = x_re · W_re^T − x_im · W_im^T + b_re and h_im = x_re · W_im^T + x_im · W_re^T + b_im, propagates h over the
  edges (the rows of h at the edge sources, times the edge weights, added up at the edge targets), adds the input back
  and applies y ↦ y · logistic(y) to the real and the imaginary part separately; the two branches are added and the
  real and imaginary parts stacked on a last axis.

  The kernel computes the four linear maps in one launch over 25 bands of 400 rows, leaves the propagation to the host,
  and computes residual, activation and branch sum in a second launch over the same bands; the reference does everything
  on the host. On exact values (the extended reals) narrowing to a shorter float format is the identity, a matrix unit's
  product into a zero accumulator is the host's contraction, and the logistic function is 1 / (1 + e^(−y)) in both
  spellings, so the two results are the same function of the arguments, with no use of their finiteness.

  The claim: each program terminates without a fault and leaves its arguments unchanged; the idealized kernel is the
  kernel's own text read on exact values (no rewrite was applied); the idealized kernel and the idealized reference end
  with equal results.
-/
import proofs.«126010_j61804579389716_1_alg».proof.Defs
import proofs.«126010_j61804579389716_1_alg».proof.Proof.Gen.Kernel
import proofs.«126010_j61804579389716_1_alg».proof.Proof.Gen.Kernel.Skeleton
import proofs.«126010_j61804579389716_1_alg».proof.Proof.Gen.Kernel.Launch
import proofs.«126010_j61804579389716_1_alg».proof.Proof.Gen.Kernel.Points
import proofs.«126010_j61804579389716_1_alg».proof.Proof.Gen.Kernel.Frame
import proofs.«126010_j61804579389716_1_alg».proof.Proof.Gen.KernelIdeal
import proofs.«126010_j61804579389716_1_alg».proof.Proof.Gen.KernelIdeal.Skeleton
import proofs.«126010_j61804579389716_1_alg».proof.Proof.Gen.KernelIdeal.Launch
import proofs.«126010_j61804579389716_1_alg».proof.Proof.Gen.KernelIdeal.Points
import proofs.«126010_j61804579389716_1_alg».proof.Proof.Gen.KernelIdeal.Frame
import proofs.«126010_j61804579389716_1_alg».proof.Proof.Gen.ReferenceIdeal
import proofs.«126010_j61804579389716_1_alg».proof.Proof.Gen.ReferenceIdeal.Run
import proofs.«126010_j61804579389716_1_alg».proof.Proof.Gen.ReferenceIdeal.Read
import proofs.«126010_j61804579389716_1_alg».proof.Proof.Gen.Pre_finite_inputs
import proofs.«126010_j61804579389716_1_alg».proof.Proof.KRun
import proofs.«126010_j61804579389716_1_alg».proof.Proof.KValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on exact values. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: the reference's last
    stage as a function of the kernel's argument arrays. -/
theorem algebraic : Cert.algebraic_KernelIdeal_ReferenceIdeal := by
  intro m ρ m' ρ' _ hagree
  refine ⟨fun c => Cert.ReferenceIdeal.Read.val_main_v115 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KValue.result_value m ρ c), (h c).2⟩)
      (Cert.KernelIdeal.KRun.run_result (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12⟩ := hagree c
    rw [(h c).1, Cert.ReferenceIdeal.Read.val_main_v115_eq, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
